-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x7 : Shape := ⟨2, ![256, 7]⟩
abbrev S7 : Shape := ⟨1, ![7]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S256 .f32) (main_arg6 : FVec F S256x7 .f32) (main_arg7 : FVec F S7 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x7 .f32 := Host.absf main_arg6
  let main_cst_8 : FVec F S_ .f32 := constant S_ .f32 0x7F800000#32
  let main_v25 : FVec F S256x7 .f32 := broadcastInDim S256x7 ![] bcast_S_S256x7 main_cst_8
  let main_v26 : IVec S256x7 1 := cmpf .olt main_v24 main_v25
  let main_c_9 : IVec S_ 1 := constantI S_ 1 1#1
  let main_v27 : IVec S_ 1 := (fun x v => Host.reduce IntOp.andi x v reducesTo_S256x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x7 .f32) (main_arg7 : FVec F S7 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x7 : Shape := ⟨2, ![256, 7]⟩
abbrev S7 : Shape := ⟨1, ![7]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩
abbrev S50000x7 : Shape := ⟨2, ![50000, 7]⟩
abbrev S2000x7 : Shape := ⟨2, ![2000, 7]⟩
abbrev S850000x7 : Shape := ⟨2, ![850000, 7]⟩
abbrev S1x7 : Shape := ⟨2, ![1, 7]⟩
abbrev S50000x1 : Shape := ⟨2, ![50000, 1]⟩

abbrev nBuf : Space → Nat
  | .hbm => 113
  | .vmem => 32
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x7, .f32⟩
  | .hbm, ⟨7, _⟩ => ⟨S7, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x256, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x256, .f32⟩
  | .hbm, ⟨51, _⟩ => ⟨S850000x1, .f32⟩
  | .hbm, ⟨52, _⟩ => ⟨S850000x256, .f32⟩
  | .hbm, ⟨53, _⟩ => ⟨S850000x256, .f32⟩
  | .hbm, ⟨54, _⟩ => ⟨S_, .f32⟩
  | .hbm, ⟨55, _⟩ => ⟨S50000x256, .f32⟩
  | .hbm, ⟨56, _⟩ => ⟨S850000x1, .i32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x256, .f32⟩
  | .hbm, ⟨70, _⟩ => ⟨S850000x1, .f32⟩
  | .hbm, ⟨71, _⟩ => ⟨S850000x256, .f32⟩
  | .hbm, ⟨72, _⟩ => ⟨S850000x256, .f32⟩
  | .hbm, ⟨73, _⟩ => ⟨S_, .f32⟩
  | .hbm, ⟨74, _⟩ => ⟨S50000x256, .f32⟩
  | .hbm, ⟨75, _⟩ => ⟨S850000x1, .i32⟩
  | .hbm, ⟨76, _⟩ => ⟨S50000x256, .f32⟩
  | .hbm, ⟨77, _⟩ => ⟨S1x256, .f32⟩
  | .hbm, ⟨78, _⟩ => ⟨S50000x256, .f32⟩
  | .hbm, ⟨79, _⟩ => ⟨S50000x7, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x7, .f32⟩
  | .hbm, ⟨89, _⟩ => ⟨S850000x1, .f32⟩
  | .hbm, ⟨90, _⟩ => ⟨S850000x7, .f32⟩
  | .hbm, ⟨91, _⟩ => ⟨S850000x7, .f32⟩
  | .hbm, ⟨92, _⟩ => ⟨S_, .f32⟩
  | .hbm, ⟨93, _⟩ => ⟨S50000x7, .f32⟩
  | .hbm, ⟨94, _⟩ => ⟨S850000x1, .i32⟩
  | .hbm, ⟨95, _⟩ => ⟨S50000x7, .f32⟩
  | .hbm, ⟨96, _⟩ => ⟨S1x7, .f32⟩
  | .hbm, ⟨97, _⟩ => ⟨S50000x7, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S50000, .f32⟩
  | .hbm, ⟨102, _⟩ => ⟨S50000, .f32⟩
  | .hbm, ⟨103, _⟩ => ⟨S50000x1, .f32⟩
  | .hbm, ⟨104, _⟩ => ⟨S50000x7, .f32⟩
  | .hbm, ⟨105, _⟩ => ⟨S50000x7, .f32⟩
  | .hbm, ⟨106, _⟩ => ⟨S50000x7, .f32⟩
  | .hbm, ⟨107, _⟩ => ⟨S_, .f32⟩
  | .hbm, ⟨108, _⟩ => ⟨S50000, .f32⟩
  | .hbm, ⟨109, _⟩ => ⟨S50000x1, .f32⟩
  | .hbm, ⟨110, _⟩ => ⟨S50000x1, .f32⟩
  | .hbm, ⟨111, _⟩ => ⟨S50000x7, .f32⟩
  | .hbm, ⟨112, _⟩ => ⟨S50000x7, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x7, .f32⟩
  | .local _ .vmem, ⟨25, _⟩ => ⟨S2000x7, .f32⟩
  | .local _ .vmem, ⟨26, _⟩ => ⟨S2000x7, .f32⟩
  | .local _ .vmem, ⟨27, _⟩ => ⟨S2000x7, .f32⟩
  | .local _ .vmem, ⟨28, _⟩ => ⟨S2000x7, .f32⟩
  | .local _ .vmem, ⟨29, _⟩ => ⟨S1x7, .f32⟩
  | .local _ .vmem, ⟨30, _⟩ => ⟨S2000x7, .f32⟩
  | .local _ .vmem, ⟨31, _⟩ => ⟨S2000x7, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call0_cst : Ref sig .tc := ⟨.hbm, 98, rfl⟩
abbrev main_call0_v0 : Ref sig .tc := ⟨.hbm, 99, rfl⟩
abbrev main_call0_cst_0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_cst_1 : Ref sig .tc := ⟨.hbm, 107, rfl⟩
abbrev main_call0_v7 : Ref sig .tc := ⟨.hbm, 108, rfl⟩
abbrev main_call0_v8 : Ref sig .tc := ⟨.hbm, 109, rfl⟩
abbrev main_call0_v9 : Ref sig .tc := ⟨.hbm, 110, rfl⟩
abbrev main_call0_v10 : Ref sig .tc := ⟨.hbm, 111, rfl⟩
abbrev main_v75 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x7 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x7 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x7 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x7 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x7 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x7_S256x7_0_0 : ∀ a, (![0, 0] : Fin 2 → Nat) a + S256x7.size a ≤ S256x7.size a
  h_S256x7 : 0 < S256x7.numel
  inb_S2000x7_S2000x7_0_0 : ∀ a, (![0, 0] : Fin 2 → Nat) a + S2000x7.size a ≤ S2000x7.size a
  h_S2000x7 : 0 < S2000x7.numel
  bcast_S850000x1_S850000x7_0_1 : S850000x1.BroadcastsInDim S850000x7 (![0, 1] : Fin 2 → Fin S850000x7.rank)
  bcast_S_S50000x7 : S_.BroadcastsInDim S50000x7 (![] : Fin 0 → Fin S50000x7.rank)
  shapeCasts_S7_S1x7 : S7.ShapeCasts S1x7
  shapeCasts_S2000x7_S2000x7 : S2000x7.ShapeCasts S2000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  reducesTo_S50000x7_S50000_d1 : S50000x7.ReducesTo [1] S50000
  h_S_ : 0 < S_.numel
  bcast_S50000_S50000x1_0 : S50000.BroadcastsInDim S50000x1 (![0] : Fin 1 → Fin S50000x1.rank)
  bcast_S50000x1_S50000x7_0_1 : S50000x1.BroadcastsInDim S50000x7 (![0, 1] : Fin 2 → Fin S50000x7.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x7_S2000x7_1_0_0_1_n_n_wf : DotDims.WF S2000x256 S256x7 S2000x7 [1] [0] [0] [1] [] []
  gather_S50000x7_S850000x1_S850000x7_1_0_n_n_0_1_17_wf : GatherDims.WF S50000x7 S850000x1 S850000x7 [1] [0] [] [0] [] 1 ![1, 7]
  scatter_S50000x7_S850000x1_S850000x7_1_0_0_1_wf : ScatterDims.WF S50000x7 S850000x1 S850000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x7.size a ≤ S256x7.size a
  hwx4_1 : ∀ i : grid4.Coords, EltTy.bits .f32 = 32 ∨ (Rect.block (s := S256x7) S256x7.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x7.size a ≤ S50000x7.size a
  hwx4_2 : ∀ i : grid4.Coords, EltTy.bits .f32 = 32 ∨ (Rect.block (s := S50000x7) S2000x7.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x7.size a ≤ S50000x7.size a
  hwx5_0 : ∀ i : grid5.Coords, EltTy.bits .f32 = 32 ∨ (Rect.block (s := S50000x7) S2000x7.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x7.size a ≤ S1x7.size a
  hwx5_1 : ∀ i : grid5.Coords, EltTy.bits .f32 = 32 ∨ (Rect.block (s := S1x7) S1x7.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x7.size a ≤ S50000x7.size a
  hwx5_2 : ∀ i : grid5.Coords, EltTy.bits .f32 = 32 ∨ (Rect.block (s := S50000x7) S2000x7.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x7_S2000x7_1_0_0_1_n_n : DotDims S2000x256 S256x7 S2000x7 where
  lhsContracting := [1]
  rhsContracting := [0]
  lhsNonContracting := [0]
  rhsNonContracting := [1]
  lhsBatch := []
  rhsBatch := []
  wf := dot_S2000x256_S256x7_S2000x7_1_0_0_1_n_n_wf
def gather_S50000x7_S850000x1_S850000x7_1_0_n_n_0_1_17 : GatherDims S50000x7 S850000x1 S850000x7 where
  offsetDims := [1]
  collapsedSliceDims := [0]
  operandBatchingDims := []
  startIndicesBatchingDims := []
  startIndexMap := [0]
  indexVectorDim := 1
  sliceSizes := ![1, 7]
  wf := gather_S50000x7_S850000x1_S850000x7_1_0_n_n_0_1_17_wf
def scatter_S50000x7_S850000x1_S850000x7_1_0_0_1 : ScatterDims S50000x7 S850000x1 S850000x7 where
  updateWindowDims := [1]
  insertedWindowDims := [0]
  scatterDimsToOperandDims := [0]
  indexVectorDim := 1
  wf := scatter_S50000x7_S850000x1_S850000x7_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v58) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x7.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S2000x7.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S2000x7.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x7.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S2000x7.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x7 : Shape := ⟨2, ![256, 7]⟩
abbrev S7 : Shape := ⟨1, ![7]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x7 : Shape := ⟨2, ![50000, 7]⟩
abbrev S850000x7 : Shape := ⟨2, ![850000, 7]⟩
abbrev S1x7 : Shape := ⟨2, ![1, 7]⟩
abbrev S50000x1 : Shape := ⟨2, ![50000, 1]⟩

abbrev nBuf : Space → Nat
  | .hbm => 123
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x7, .f32⟩
  | .hbm, ⟨7, _⟩ => ⟨S7, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x256, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x256, .f32⟩
  | .hbm, ⟨51, _⟩ => ⟨S850000x1, .f32⟩
  | .hbm, ⟨52, _⟩ => ⟨S850000x256, .f32⟩
  | .hbm, ⟨53, _⟩ => ⟨S850000x256, .f32⟩
  | .hbm, ⟨54, _⟩ => ⟨S_, .f32⟩
  | .hbm, ⟨55, _⟩ => ⟨S50000x256, .f32⟩
  | .hbm, ⟨56, _⟩ => ⟨S850000x1, .i32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x256, .f32⟩
  | .hbm, ⟨74, _⟩ => ⟨S850000x1, .f32⟩
  | .hbm, ⟨75, _⟩ => ⟨S850000x256, .f32⟩
  | .hbm, ⟨76, _⟩ => ⟨S850000x256, .f32⟩
  | .hbm, ⟨77, _⟩ => ⟨S_, .f32⟩
  | .hbm, ⟨78, _⟩ => ⟨S50000x256, .f32⟩
  | .hbm, ⟨79, _⟩ => ⟨S850000x1, .i32⟩
  | .hbm, ⟨80, _⟩ => ⟨S50000x256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S_, .f32⟩
  | .hbm, ⟨85, _⟩ => ⟨S50000x256, .f32⟩
  | .hbm, ⟨86, _⟩ => ⟨S50000x256, .f32⟩
  | .hbm, ⟨87, _⟩ => ⟨S50000x256, .f32⟩
  | .hbm, ⟨88, _⟩ => ⟨S50000x7, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x7, .f32⟩
  | .hbm, ⟨98, _⟩ => ⟨S850000x1, .f32⟩
  | .hbm, ⟨99, _⟩ => ⟨S850000x7, .f32⟩
  | .hbm, ⟨100, _⟩ => ⟨S850000x7, .f32⟩
  | .hbm, ⟨101, _⟩ => ⟨S_, .f32⟩
  | .hbm, ⟨102, _⟩ => ⟨S50000x7, .f32⟩
  | .hbm, ⟨103, _⟩ => ⟨S850000x1, .i32⟩
  | .hbm, ⟨104, _⟩ => ⟨S50000x7, .f32⟩
  | .hbm, ⟨105, _⟩ => ⟨S1x7, .f32⟩
  | .hbm, ⟨106, _⟩ => ⟨S50000x7, .f32⟩
  | .hbm, ⟨107, _⟩ => ⟨S50000x7, .f32⟩
  | .hbm, ⟨108, _⟩ => ⟨S_, .f32⟩
  | .hbm, ⟨109, _⟩ => ⟨S50000, .f32⟩
  | .hbm, ⟨110, _⟩ => ⟨S_, .f32⟩
  | .hbm, ⟨111, _⟩ => ⟨S50000, .f32⟩
  | .hbm, ⟨112, _⟩ => ⟨S50000, .f32⟩
  | .hbm, ⟨113, _⟩ => ⟨S50000x1, .f32⟩
  | .hbm, ⟨114, _⟩ => ⟨S50000x7, .f32⟩
  | .hbm, ⟨115, _⟩ => ⟨S50000x7, .f32⟩
  | .hbm, ⟨116, _⟩ => ⟨S50000x7, .f32⟩
  | .hbm, ⟨117, _⟩ => ⟨S_, .f32⟩
  | .hbm, ⟨118, _⟩ => ⟨S50000, .f32⟩
  | .hbm, ⟨119, _⟩ => ⟨S50000x1, .f32⟩
  | .hbm, ⟨120, _⟩ => ⟨S50000x1, .f32⟩
  | .hbm, ⟨121, _⟩ => ⟨S50000x7, .f32⟩
  | .hbm, ⟨122, _⟩ => ⟨S50000x7, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_10 : Ref sig .tc := ⟨.hbm, 89, rfl⟩
abbrev main_v65 : Ref sig .tc := ⟨.hbm, 90, rfl⟩
abbrev main_v66 : Ref sig .tc := ⟨.hbm, 91, rfl⟩
abbrev main_c_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v81 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x7_0_1 : S850000x1.BroadcastsInDim S850000x7 (![0, 1] : Fin 2 → Fin S850000x7.rank)
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  reducesTo_S50000x7_S50000_d1 : S50000x7.ReducesTo [1] S50000
  h_S_ : 0 < S_.numel
  bcast_S50000_S50000x1_0 : S50000.BroadcastsInDim S50000x1 (![0] : Fin 1 → Fin S50000x1.rank)
  bcast_S50000x1_S50000x7_0_1 : S50000x1.BroadcastsInDim S50000x7 (![0, 1] : Fin 2 → Fin S50000x7.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x7_S50000x7_1_0_0_1_n_n_wf : DotDims.WF S50000x256 S256x7 S50000x7 [1] [0] [0] [1] [] []
  gather_S50000x7_S850000x1_S850000x7_1_0_n_n_0_1_17_wf : GatherDims.WF S50000x7 S850000x1 S850000x7 [1] [0] [] [0] [] 1 ![1, 7]
  scatter_S50000x7_S850000x1_S850000x7_1_0_0_1_wf : ScatterDims.WF S50000x7 S850000x1 S850000x7 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x7_S50000x7_1_0_0_1_n_n : DotDims S50000x256 S256x7 S50000x7 where
  lhsContracting := [1]
  rhsContracting := [0]
  lhsNonContracting := [0]
  rhsNonContracting := [1]
  lhsBatch := []
  rhsBatch := []
  wf := dot_S50000x256_S256x7_S50000x7_1_0_0_1_n_n_wf
def gather_S50000x7_S850000x1_S850000x7_1_0_n_n_0_1_17 : GatherDims S50000x7 S850000x1 S850000x7 where
  offsetDims := [1]
  collapsedSliceDims := [0]
  operandBatchingDims := []
  startIndicesBatchingDims := []
  startIndexMap := [0]
  indexVectorDim := 1
  sliceSizes := ![1, 7]
  wf := gather_S50000x7_S850000x1_S850000x7_1_0_n_n_0_1_17_wf
def scatter_S50000x7_S850000x1_S850000x7_1_0_0_1 : ScatterDims S50000x7 S850000x1 S850000x7 where
  updateWindowDims := [1]
  insertedWindowDims := [0]
  scatterDimsToOperandDims := [0]
  indexVectorDim := 1
  wf := scatter_S50000x7_S850000x1_S850000x7_1_0_0_1_wf

class Facts : Prop extends Facts₀ where

variable [Facts]
-- ==== Proof.RunResult.lean ====
/-
  The idealized kernel program's run, with its RESULT named.  The program is eleven segments: five stretches of
  host operations and six tiled regions.  Folding the segments from the launch memory gives the buffer contents at
  every boundary; the last boundary's contents are what every weakly fair execution ends with.  The generated frame
  keeps, of that last boundary, only the argument arrays; here the same launch rule over the same segments keeps
  the result array as well: it ends at the fold's last valuation read at the result buffer.
-/
import proofs.«135195_j40699110097665_1_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one, which takes unfolding
-- plain definitions in a metavariable's type
set_option backward.isDefEq.respectTransparency.types false in
/-- Every weakly fair execution of the program terminates, nothing faulting, with the result array at the last
    boundary's contents and the eight argument arrays as launched. -/
theorem run_result : θ_run defs (onTc (τ := τ) (main (F := F))) ⟨m, fun _ => 0, ρ⟩ (fun r => ∀ c : Dev nD,
      r.2.mem ((c.tc : Thread nD τ).loc main_v75) = W11 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v75 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Layers

end
-- ==== Proof.Carry.lean ====
/-
  Which buffers survive which segment.  The program's buffer contents at the boundaries between its eleven segments
  are a fold from the launch memory: a stretch of host operations rewrites exactly the buffers its operations write,
  and a tiled region rewrites exactly its windows' arrays.  The edge lists and edge weights are computed once, before
  the first region, and read again by every later aggregation; each weight matrix and bias is an argument read only
  at its own layer; the first layer's output is read again two regions later, as the residual.  So each of these
  buffers has to be followed across the segments in between, none of which writes it: across a host stretch because
  no operation of the stretch has it as its result, across a region because it is none of the region's arrays.
-/
import proofs.«135195_j40699110097665_1_alg».proof.Proof.Gen.KernelIdeal.Frame
import Idealize.ShloMosaic.Lib.StableHlo.Run
import Idealize.ShloMosaic.PureOps.Ideal

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## the node features (`main_arg0`), from boundary 0 to boundary 1 -/

/-- No operation of the stretch before boundary 1 writes it. -/
theorem keep1_arg0 : W1 m ρ c (Proc.devRef .tc main_arg0) = W0 m ρ c (Proc.devRef .tc main_arg0) :=
  (show StableHlo.after hostOps0 (W0 m ρ c) (Proc.devRef .tc main_arg0) = W0 m ρ c (Proc.devRef .tc main_arg0) by after_results)

/-! ## the first weight matrix (`main_arg2`), from boundary 0 to boundary 1 -/

/-- No operation of the stretch before boundary 1 writes it. -/
theorem keep1_arg2 : W1 m ρ c (Proc.devRef .tc main_arg2) = W0 m ρ c (Proc.devRef .tc main_arg2) :=
  (show StableHlo.after hostOps0 (W0 m ρ c) (Proc.devRef .tc main_arg2) = W0 m ρ c (Proc.devRef .tc main_arg2) by after_results)

/-! ## the first bias (`main_arg3`), from boundary 0 to boundary 2 -/

/-- No operation of the stretch before boundary 1 writes it. -/
theorem keep1_arg3 : W1 m ρ c (Proc.devRef .tc main_arg3) = W0 m ρ c (Proc.devRef .tc main_arg3) :=
  (show StableHlo.after hostOps0 (W0 m ρ c) (Proc.devRef .tc main_arg3) = W0 m ρ c (Proc.devRef .tc main_arg3) by after_results)
/-- It is none of the arrays of the region before boundary 2. -/
theorem keep2_arg3 : W2 m ρ c (Proc.devRef .tc main_arg3) = W0 m ρ c (Proc.devRef .tc main_arg3) :=
  (W2_of_ne m ρ c main_arg3 (by decide)).trans (keep1_arg3 m ρ c)

/-! ## the second weight matrix (`main_arg4`), from boundary 0 to boundary 4 -/

/-- No operation of the stretch before boundary 1 writes it. -/
theorem keep1_arg4 : W1 m ρ c (Proc.devRef .tc main_arg4) = W0 m ρ c (Proc.devRef .tc main_arg4) :=
  (show StableHlo.after hostOps0 (W0 m ρ c) (Proc.devRef .tc main_arg4) = W0 m ρ c (Proc.devRef .tc main_arg4) by after_results)
/-- It is none of the arrays of the region before boundary 2. -/
theorem keep2_arg4 : W2 m ρ c (Proc.devRef .tc main_arg4) = W0 m ρ c (Proc.devRef .tc main_arg4) :=
  (W2_of_ne m ρ c main_arg4 (by decide)).trans (keep1_arg4 m ρ c)
/-- No operation of the stretch before boundary 3 writes it. -/
theorem keep3_arg4 : W3 m ρ c (Proc.devRef .tc main_arg4) = W0 m ρ c (Proc.devRef .tc main_arg4) :=
  (show StableHlo.after hostOps1 (W2 m ρ c) (Proc.devRef .tc main_arg4) = W2 m ρ c (Proc.devRef .tc main_arg4) by after_results).trans (keep2_arg4 m ρ c)
/-- It is none of the arrays of the region before boundary 4. -/
theorem keep4_arg4 : W4 m ρ c (Proc.devRef .tc main_arg4) = W0 m ρ c (Proc.devRef .tc main_arg4) :=
  (W4_of_ne m ρ c main_arg4 (by decide)).trans (keep3_arg4 m ρ c)

/-! ## the second bias (`main_arg5`), from boundary 0 to boundary 5 -/

/-- No operation of the stretch before boundary 1 writes it. -/
theorem keep1_arg5 : W1 m ρ c (Proc.devRef .tc main_arg5) = W0 m ρ c (Proc.devRef .tc main_arg5) :=
  (show StableHlo.after hostOps0 (W0 m ρ c) (Proc.devRef .tc main_arg5) = W0 m ρ c (Proc.devRef .tc main_arg5) by after_results)
/-- It is none of the arrays of the region before boundary 2. -/
theorem keep2_arg5 : W2 m ρ c (Proc.devRef .tc main_arg5) = W0 m ρ c (Proc.devRef .tc main_arg5) :=
  (W2_of_ne m ρ c main_arg5 (by decide)).trans (keep1_arg5 m ρ c)
/-- No operation of the stretch before boundary 3 writes it. -/
theorem keep3_arg5 : W3 m ρ c (Proc.devRef .tc main_arg5) = W0 m ρ c (Proc.devRef .tc main_arg5) :=
  (show StableHlo.after hostOps1 (W2 m ρ c) (Proc.devRef .tc main_arg5) = W2 m ρ c (Proc.devRef .tc main_arg5) by after_results).trans (keep2_arg5 m ρ c)
/-- It is none of the arrays of the region before boundary 4. -/
theorem keep4_arg5 : W4 m ρ c (Proc.devRef .tc main_arg5) = W0 m ρ c (Proc.devRef .tc main_arg5) :=
  (W4_of_ne m ρ c main_arg5 (by decide)).trans (keep3_arg5 m ρ c)
/-- It is none of the arrays of the region before boundary 5. -/
theorem keep5_arg5 : W5 m ρ c (Proc.devRef .tc main_arg5) = W0 m ρ c (Proc.devRef .tc main_arg5) :=
  (W5_of_ne m ρ c main_arg5 (by decide)).trans (keep4_arg5 m ρ c)

/-! ## the classifier's weight matrix (`main_arg6`), from boundary 0 to boundary 7 -/

/-- No operation of the stretch before boundary 1 writes it. -/
theorem keep1_arg6 : W1 m ρ c (Proc.devRef .tc main_arg6) = W0 m ρ c (Proc.devRef .tc main_arg6) :=
  (show StableHlo.after hostOps0 (W0 m ρ c) (Proc.devRef .tc main_arg6) = W0 m ρ c (Proc.devRef .tc main_arg6) by after_results)
/-- It is none of the arrays of the region before boundary 2. -/
theorem keep2_arg6 : W2 m ρ c (Proc.devRef .tc main_arg6) = W0 m ρ c (Proc.devRef .tc main_arg6) :=
  (W2_of_ne m ρ c main_arg6 (by decide)).trans (keep1_arg6 m ρ c)
/-- No operation of the stretch before boundary 3 writes it. -/
theorem keep3_arg6 : W3 m ρ c (Proc.devRef .tc main_arg6) = W0 m ρ c (Proc.devRef .tc main_arg6) :=
  (show StableHlo.after hostOps1 (W2 m ρ c) (Proc.devRef .tc main_arg6) = W2 m ρ c (Proc.devRef .tc main_arg6) by after_results).trans (keep2_arg6 m ρ c)
/-- It is none of the arrays of the region before boundary 4. -/
theorem keep4_arg6 : W4 m ρ c (Proc.devRef .tc main_arg6) = W0 m ρ c (Proc.devRef .tc main_arg6) :=
  (W4_of_ne m ρ c main_arg6 (by decide)).trans (keep3_arg6 m ρ c)
/-- It is none of the arrays of the region before boundary 5. -/
theorem keep5_arg6 : W5 m ρ c (Proc.devRef .tc main_arg6) = W0 m ρ c (Proc.devRef .tc main_arg6) :=
  (W5_of_ne m ρ c main_arg6 (by decide)).trans (keep4_arg6 m ρ c)
/-- No operation of the stretch before boundary 6 writes it. -/
theorem keep6_arg6 : W6 m ρ c (Proc.devRef .tc main_arg6) = W0 m ρ c (Proc.devRef .tc main_arg6) :=
  (show StableHlo.after hostOps3 (W5 m ρ c) (Proc.devRef .tc main_arg6) = W5 m ρ c (Proc.devRef .tc main_arg6) by after_results).trans (keep5_arg6 m ρ c)
/-- It is none of the arrays of the region before boundary 7. -/
theorem keep7_arg6 : W7 m ρ c (Proc.devRef .tc main_arg6) = W0 m ρ c (Proc.devRef .tc main_arg6) :=
  (W7_of_ne m ρ c main_arg6 (by decide)).trans (keep6_arg6 m ρ c)

/-! ## the classifier's bias (`main_arg7`), from boundary 0 to boundary 8 -/

/-- No operation of the stretch before boundary 1 writes it. -/
theorem keep1_arg7 : W1 m ρ c (Proc.devRef .tc main_arg7) = W0 m ρ c (Proc.devRef .tc main_arg7) :=
  (show StableHlo.after hostOps0 (W0 m ρ c) (Proc.devRef .tc main_arg7) = W0 m ρ c (Proc.devRef .tc main_arg7) by after_results)
/-- It is none of the arrays of the region before boundary 2. -/
theorem keep2_arg7 : W2 m ρ c (Proc.devRef .tc main_arg7) = W0 m ρ c (Proc.devRef .tc main_arg7) :=
  (W2_of_ne m ρ c main_arg7 (by decide)).trans (keep1_arg7 m ρ c)
/-- No operation of the stretch before boundary 3 writes it. -/
theorem keep3_arg7 : W3 m ρ c (Proc.devRef .tc main_arg7) = W0 m ρ c (Proc.devRef .tc main_arg7) :=
  (show StableHlo.after hostOps1 (W2 m ρ c) (Proc.devRef .tc main_arg7) = W2 m ρ c (Proc.devRef .tc main_arg7) by after_results).trans (keep2_arg7 m ρ c)
/-- It is none of the arrays of the region before boundary 4. -/
theorem keep4_arg7 : W4 m ρ c (Proc.devRef .tc main_arg7) = W0 m ρ c (Proc.devRef .tc main_arg7) :=
  (W4_of_ne m ρ c main_arg7 (by decide)).trans (keep3_arg7 m ρ c)
/-- It is none of the arrays of the region before boundary 5. -/
theorem keep5_arg7 : W5 m ρ c (Proc.devRef .tc main_arg7) = W0 m ρ c (Proc.devRef .tc main_arg7) :=
  (W5_of_ne m ρ c main_arg7 (by decide)).trans (keep4_arg7 m ρ c)
/-- No operation of the stretch before boundary 6 writes it. -/
theorem keep6_arg7 : W6 m ρ c (Proc.devRef .tc main_arg7) = W0 m ρ c (Proc.devRef .tc main_arg7) :=
  (show StableHlo.after hostOps3 (W5 m ρ c) (Proc.devRef .tc main_arg7) = W5 m ρ c (Proc.devRef .tc main_arg7) by after_results).trans (keep5_arg7 m ρ c)
/-- It is none of the arrays of the region before boundary 7. -/
theorem keep7_arg7 : W7 m ρ c (Proc.devRef .tc main_arg7) = W0 m ρ c (Proc.devRef .tc main_arg7) :=
  (W7_of_ne m ρ c main_arg7 (by decide)).trans (keep6_arg7 m ρ c)
/-- It is none of the arrays of the region before boundary 8. -/
theorem keep8_arg7 : W8 m ρ c (Proc.devRef .tc main_arg7) = W0 m ρ c (Proc.devRef .tc main_arg7) :=
  (W8_of_ne m ρ c main_arg7 (by decide)).trans (keep7_arg7 m ρ c)

/-! ## the source node of every edge (self-loops appended) (`main_v3`), from boundary 1 to boundary 8 -/

/-- It is none of the arrays of the region before boundary 2. -/
theorem keep2_v3 : W2 m ρ c (Proc.devRef .tc main_v3) = W1 m ρ c (Proc.devRef .tc main_v3) :=
  (W2_of_ne m ρ c main_v3 (by decide))
/-- No operation of the stretch before boundary 3 writes it. -/
theorem keep3_v3 : W3 m ρ c (Proc.devRef .tc main_v3) = W1 m ρ c (Proc.devRef .tc main_v3) :=
  (show StableHlo.after hostOps1 (W2 m ρ c) (Proc.devRef .tc main_v3) = W2 m ρ c (Proc.devRef .tc main_v3) by after_results).trans (keep2_v3 m ρ c)
/-- It is none of the arrays of the region before boundary 4. -/
theorem keep4_v3 : W4 m ρ c (Proc.devRef .tc main_v3) = W1 m ρ c (Proc.devRef .tc main_v3) :=
  (W4_of_ne m ρ c main_v3 (by decide)).trans (keep3_v3 m ρ c)
/-- It is none of the arrays of the region before boundary 5. -/
theorem keep5_v3 : W5 m ρ c (Proc.devRef .tc main_v3) = W1 m ρ c (Proc.devRef .tc main_v3) :=
  (W5_of_ne m ρ c main_v3 (by decide)).trans (keep4_v3 m ρ c)
/-- No operation of the stretch before boundary 6 writes it. -/
theorem keep6_v3 : W6 m ρ c (Proc.devRef .tc main_v3) = W1 m ρ c (Proc.devRef .tc main_v3) :=
  (show StableHlo.after hostOps3 (W5 m ρ c) (Proc.devRef .tc main_v3) = W5 m ρ c (Proc.devRef .tc main_v3) by after_results).trans (keep5_v3 m ρ c)
/-- It is none of the arrays of the region before boundary 7. -/
theorem keep7_v3 : W7 m ρ c (Proc.devRef .tc main_v3) = W1 m ρ c (Proc.devRef .tc main_v3) :=
  (W7_of_ne m ρ c main_v3 (by decide)).trans (keep6_v3 m ρ c)
/-- It is none of the arrays of the region before boundary 8. -/
theorem keep8_v3 : W8 m ρ c (Proc.devRef .tc main_v3) = W1 m ρ c (Proc.devRef .tc main_v3) :=
  (W8_of_ne m ρ c main_v3 (by decide)).trans (keep7_v3 m ρ c)

/-! ## the target node of every edge (self-loops appended) (`main_v6`), from boundary 1 to boundary 8 -/

/-- It is none of the arrays of the region before boundary 2. -/
theorem keep2_v6 : W2 m ρ c (Proc.devRef .tc main_v6) = W1 m ρ c (Proc.devRef .tc main_v6) :=
  (W2_of_ne m ρ c main_v6 (by decide))
/-- No operation of the stretch before boundary 3 writes it. -/
theorem keep3_v6 : W3 m ρ c (Proc.devRef .tc main_v6) = W1 m ρ c (Proc.devRef .tc main_v6) :=
  (show StableHlo.after hostOps1 (W2 m ρ c) (Proc.devRef .tc main_v6) = W2 m ρ c (Proc.devRef .tc main_v6) by after_results).trans (keep2_v6 m ρ c)
/-- It is none of the arrays of the region before boundary 4. -/
theorem keep4_v6 : W4 m ρ c (Proc.devRef .tc main_v6) = W1 m ρ c (Proc.devRef .tc main_v6) :=
  (W4_of_ne m ρ c main_v6 (by decide)).trans (keep3_v6 m ρ c)
/-- It is none of the arrays of the region before boundary 5. -/
theorem keep5_v6 : W5 m ρ c (Proc.devRef .tc main_v6) = W1 m ρ c (Proc.devRef .tc main_v6) :=
  (W5_of_ne m ρ c main_v6 (by decide)).trans (keep4_v6 m ρ c)
/-- No operation of the stretch before boundary 6 writes it. -/
theorem keep6_v6 : W6 m ρ c (Proc.devRef .tc main_v6) = W1 m ρ c (Proc.devRef .tc main_v6) :=
  (show StableHlo.after hostOps3 (W5 m ρ c) (Proc.devRef .tc main_v6) = W5 m ρ c (Proc.devRef .tc main_v6) by after_results).trans (keep5_v6 m ρ c)
/-- It is none of the arrays of the region before boundary 7. -/
theorem keep7_v6 : W7 m ρ c (Proc.devRef .tc main_v6) = W1 m ρ c (Proc.devRef .tc main_v6) :=
  (W7_of_ne m ρ c main_v6 (by decide)).trans (keep6_v6 m ρ c)
/-- It is none of the arrays of the region before boundary 8. -/
theorem keep8_v6 : W8 m ρ c (Proc.devRef .tc main_v6) = W1 m ρ c (Proc.devRef .tc main_v6) :=
  (W8_of_ne m ρ c main_v6 (by decide)).trans (keep7_v6 m ρ c)

/-! ## the edge weights of the symmetric normalization (`main_v26`), from boundary 1 to boundary 8 -/

/-- It is none of the arrays of the region before boundary 2. -/
theorem keep2_v26 : W2 m ρ c (Proc.devRef .tc main_v26) = W1 m ρ c (Proc.devRef .tc main_v26) :=
  (W2_of_ne m ρ c main_v26 (by decide))
/-- No operation of the stretch before boundary 3 writes it. -/
theorem keep3_v26 : W3 m ρ c (Proc.devRef .tc main_v26) = W1 m ρ c (Proc.devRef .tc main_v26) :=
  (show StableHlo.after hostOps1 (W2 m ρ c) (Proc.devRef .tc main_v26) = W2 m ρ c (Proc.devRef .tc main_v26) by after_results).trans (keep2_v26 m ρ c)
/-- It is none of the arrays of the region before boundary 4. -/
theorem keep4_v26 : W4 m ρ c (Proc.devRef .tc main_v26) = W1 m ρ c (Proc.devRef .tc main_v26) :=
  (W4_of_ne m ρ c main_v26 (by decide)).trans (keep3_v26 m ρ c)
/-- It is none of the arrays of the region before boundary 5. -/
theorem keep5_v26 : W5 m ρ c (Proc.devRef .tc main_v26) = W1 m ρ c (Proc.devRef .tc main_v26) :=
  (W5_of_ne m ρ c main_v26 (by decide)).trans (keep4_v26 m ρ c)
/-- No operation of the stretch before boundary 6 writes it. -/
theorem keep6_v26 : W6 m ρ c (Proc.devRef .tc main_v26) = W1 m ρ c (Proc.devRef .tc main_v26) :=
  (show StableHlo.after hostOps3 (W5 m ρ c) (Proc.devRef .tc main_v26) = W5 m ρ c (Proc.devRef .tc main_v26) by after_results).trans (keep5_v26 m ρ c)
/-- It is none of the arrays of the region before boundary 7. -/
theorem keep7_v26 : W7 m ρ c (Proc.devRef .tc main_v26) = W1 m ρ c (Proc.devRef .tc main_v26) :=
  (W7_of_ne m ρ c main_v26 (by decide)).trans (keep6_v26 m ρ c)
/-- It is none of the arrays of the region before boundary 8. -/
theorem keep8_v26 : W8 m ρ c (Proc.devRef .tc main_v26) = W1 m ρ c (Proc.devRef .tc main_v26) :=
  (W8_of_ne m ρ c main_v26 (by decide)).trans (keep7_v26 m ρ c)

/-! ## the first layer's output (the second layer's residual) (`main_v42`), from boundary 4 to boundary 6 -/

/-- It is an INPUT array of the region before boundary 5 (the second dense layer reads it): a region leaves its input
    windows' arrays as it found them. -/
theorem keep5_v42 : W5 m ρ c (Proc.devRef .tc main_v42) = W4 m ρ c (Proc.devRef .tc main_v42) :=
  (W5_arr m ρ c 0).trans (((dat2 (V4 m ρ) c).arrAt_in 0 rfl _).trans (A_eq2 (V4 m ρ) c 0))
/-- No operation of the stretch before boundary 6 writes it. -/
theorem keep6_v42 : W6 m ρ c (Proc.devRef .tc main_v42) = W4 m ρ c (Proc.devRef .tc main_v42) :=
  (show StableHlo.after hostOps3 (W5 m ρ c) (Proc.devRef .tc main_v42) = W5 m ρ c (Proc.devRef .tc main_v42) by after_results).trans (keep5_v42 m ρ c)

end Cert.KernelIdeal.Layers

end
-- ==== Proof.HostStages.lean ====
/-
  The host stretches of the tiled program compute what the reference computes.  Between the tiled regions the program
  runs the same host operations as the reference: before the first region the edge lists with their self-loops, the
  node degrees (a scatter-add of ones), their inverse square roots and the edge weights; after each dense region a
  row gather along the edges' sources, the scaling by the edge weights and a scatter-add along the edges' targets;
  a reshape of each bias to a row; after the last region the log-softmax over the seven classes.  So once a stretch's
  inputs are known to be the reference's stages, so are its outputs — operation for operation the same term, read
  off the fold of the stretch.  The edge lists and weights are followed from the first boundary to the stretch that
  reads them (they are written nowhere in between).
-/
import proofs.«135195_j40699110097665_1_alg».proof.Proof.Carry
import proofs.«135195_j40699110097665_1_alg».proof.Proof.RefRead

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region: the graph's edge lists and edge weights -/

set_option maxHeartbeats 8000000 in
/-- The sources of the edges, self-loops appended. -/
theorem at1_v3 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results <;> rfl

set_option maxHeartbeats 8000000 in
/-- The targets of the edges, self-loops appended. -/
theorem at1_v6 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results <;> rfl

set_option maxHeartbeats 8000000 in
/-- The edge weights: the product of the inverse square roots of the two end nodes' degrees. -/
theorem at1_v26 : W1 m ρ c (Proc.devRef .tc main_v26) = Cert.ReferenceIdeal.ReadP.val_main_v26 (F := Ideal) (m ((c : Thread nD τ).loc main_arg1)) := by
  show StableHlo.after hostOps0 (W0 m ρ c) (Proc.devRef .tc main_v26) = _
  after_results <;> rfl

/-! ## After the first dense region: the first aggregation, and the first bias as a row -/

set_option maxHeartbeats 8000000 in
/-- Gather the dense layer's rows along the sources, scale by the edge weights, add up along the targets. -/
theorem host1_v40 (h27 : W2 m ρ c (Proc.devRef .tc main_v27) = Cert.ReferenceIdeal.ReadP.val_main_v27 (F := Ideal) (m ((c : Thread nD τ).loc main_arg0)) (m ((c : Thread nD τ).loc main_arg2))) :
    W3 m ρ c (Proc.devRef .tc main_v40) = Cert.ReferenceIdeal.ReadP.val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results
  rw [h27, keep2_v3 m ρ c, keep2_v6 m ρ c, keep2_v26 m ρ c, at1_v3 m ρ c, at1_v6 m ρ c, at1_v26 m ρ c]
  rfl

set_option maxHeartbeats 8000000 in
/-- The first bias, reshaped to one row. -/
theorem host1_v41 : W3 m ρ c (Proc.devRef .tc main_v41) = shapeCast S1x256 (m ((c : Thread nD τ).loc main_arg3)) shapeCasts_S256_S1x256 := by
  show StableHlo.after hostOps1 (W2 m ρ c) (Proc.devRef .tc main_v41) = _
  after_results
  rw [keep2_arg3 m ρ c]
  rfl

/-! ## After the second dense region -/

set_option maxHeartbeats 8000000 in
/-- The second aggregation. -/
theorem host3_v56 (h43 : W5 m ρ c (Proc.devRef .tc main_v43) = Cert.ReferenceIdeal.ReadP.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    W6 m ρ c (Proc.devRef .tc main_v56) = Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v56) = _
  after_results
  rw [h43, keep5_v3 m ρ c, keep5_v6 m ρ c, keep5_v26 m ρ c, at1_v3 m ρ c, at1_v6 m ρ c, at1_v26 m ρ c]
  rfl

set_option maxHeartbeats 8000000 in
/-- The second bias, reshaped to one row. -/
theorem host3_v57 : W6 m ρ c (Proc.devRef .tc main_v57) = shapeCast S1x256 (m ((c : Thread nD τ).loc main_arg5)) shapeCasts_S256_S1x256 := by
  show StableHlo.after hostOps3 (W5 m ρ c) (Proc.devRef .tc main_v57) = _
  after_results
  rw [keep5_arg5 m ρ c]
  rfl

/-! ## After the third dense region -/

set_option maxHeartbeats 8000000 in
/-- The third aggregation, on the class scores. -/
theorem host5_v72 (h59 : W8 m ρ c (Proc.devRef .tc main_v59) = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W9 m ρ c (Proc.devRef .tc main_v72) = Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v72) = _
  after_results
  rw [h59, keep8_v3 m ρ c, keep8_v6 m ρ c, keep8_v26 m ρ c, at1_v3 m ρ c, at1_v6 m ρ c, at1_v26 m ρ c]
  rfl

set_option maxHeartbeats 8000000 in
/-- The classifier's bias, reshaped to one row. -/
theorem host5_v73 : W9 m ρ c (Proc.devRef .tc main_v73) = shapeCast S1x7 (m ((c : Thread nD τ).loc main_arg7)) shapeCasts_S7_S1x7 := by
  show StableHlo.after hostOps5 (W8 m ρ c) (Proc.devRef .tc main_v73) = _
  after_results
  rw [keep8_arg7 m ρ c]
  rfl

/-! ## After the last region: the log-softmax over the classes -/

set_option maxHeartbeats 8000000 in
/-- The result: each node's scores minus their maximum, minus the logarithm of the sum of the exponentials. -/
theorem host6_v75 (h74 : W10 m ρ c (Proc.devRef .tc main_v74) = Cert.ReferenceIdeal.ReadP.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W11 m ρ c (Proc.devRef .tc main_v75) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps6 (W10 m ρ c) (Proc.devRef .tc main_v75) = _
  after_results
  -- the softmax is an outlined function: its operations move values to and from their buffers' types along
  -- equations that hold by computation; those moves are the identity
  simp only [TRef.toBuf, TRef.ofBuf, cast_eq]
  rw [h74]
  rfl

end Cert.KernelIdeal.Layers

end
-- ==== Proof.Spec.lean ====
/-
  The layers of a three-layer graph convolution as whole-array functions over the extended reals, index by index.
  A dense layer is the matrix product (X W)[n, j] = Σ_k X[n, k] · W[k, j]; the three closing steps add the bias row
  (b[0, j], broadcast down the 50000 nodes) to an aggregated array and then clamp at zero, clamp at zero and add
  a residual array, or do nothing more.  Nothing here mentions a program: both the tiled kernels (25 blocks of 2000
  nodes each) and the host's whole-array operations are shown, elsewhere, to compute these functions.
-/
import Idealize.ShloMosaic.PureOps.Ideal
import Idealize.ShloMosaic.Lib.ValueIdx

noncomputable section

namespace Cert.Gcn

open Idealize.ShloMosaic
open scoped BigOperators

/-- Node features, 50000 × 256. -/
abbrev SNxD : Shape := ⟨2, ![50000, 256]⟩
/-- A square weight matrix, 256 × 256. -/
abbrev SDxD : Shape := ⟨2, ![256, 256]⟩
/-- The classifier's weight matrix, 256 × 7. -/
abbrev SDxC : Shape := ⟨2, ![256, 7]⟩
/-- Class scores, 50000 × 7. -/
abbrev SNxC : Shape := ⟨2, ![50000, 7]⟩
/-- A bias row, 1 × 256. -/
abbrev S1xD : Shape := ⟨2, ![1, 256]⟩
/-- A bias row, 1 × 7. -/
abbrev S1xC : Shape := ⟨2, ![1, 7]⟩

/-- Entry (n, k) of a 50000 × 256 array, for the row n of an index into a 50000 × 256 result. -/
abbrev lhsD (i : SNxD.Idx) (k : Fin 256) : SNxD.Idx := fun a => match a with
  | ⟨0, _⟩ => ⟨(i 0).val, (i 0).isLt⟩
  | ⟨1, _⟩ => ⟨k.val, k.isLt⟩
/-- Entry (k, j) of a 256 × 256 matrix, for the column j of an index into a 50000 × 256 result. -/
abbrev rhsD (i : SNxD.Idx) (k : Fin 256) : SDxD.Idx := fun a => match a with
  | ⟨0, _⟩ => ⟨k.val, k.isLt⟩
  | ⟨1, _⟩ => ⟨(i 1).val, (i 1).isLt⟩
/-- Entry (n, k) of a 50000 × 256 array, for the row n of an index into a 50000 × 7 result. -/
abbrev lhsC (i : SNxC.Idx) (k : Fin 256) : SNxD.Idx := fun a => match a with
  | ⟨0, _⟩ => ⟨(i 0).val, (i 0).isLt⟩
  | ⟨1, _⟩ => ⟨k.val, k.isLt⟩
/-- Entry (k, j) of a 256 × 7 matrix, for the column j of an index into a 50000 × 7 result. -/
abbrev rhsC (i : SNxC.Idx) (k : Fin 256) : SDxC.Idx := fun a => match a with
  | ⟨0, _⟩ => ⟨k.val, k.isLt⟩
  | ⟨1, _⟩ => ⟨(i 1).val, (i 1).isLt⟩
/-- Entry (0, j) of a 1 × 256 bias row, for the column j of an index into a 50000 × 256 array. -/
abbrev biasD (i : SNxD.Idx) : S1xD.Idx := fun a => match a with
  | ⟨0, _⟩ => ⟨0, Nat.one_pos⟩
  | ⟨1, _⟩ => ⟨(i 1).val, (i 1).isLt⟩
/-- Entry (0, j) of a 1 × 7 bias row, for the column j of an index into a 50000 × 7 array. -/
abbrev biasC (i : SNxC.Idx) : S1xC.Idx := fun a => match a with
  | ⟨0, _⟩ => ⟨0, Nat.one_pos⟩
  | ⟨1, _⟩ => ⟨(i 1).val, (i 1).isLt⟩

/-- The dense layer into 256 features: (X W)[n, j] = Σ_k X[n, k] · W[k, j]. -/
def denseD (X : FVec Ideal SNxD .f32) (W : FVec Ideal SDxD .f32) : FVec Ideal SNxD .f32 :=
  fun i => ∑ k : Fin 256, X (lhsD i k) * W (rhsD i k)

/-- The dense layer into the 7 classes: (X W)[n, j] = Σ_k X[n, k] · W[k, j]. -/
def denseC (X : FVec Ideal SNxD .f32) (W : FVec Ideal SDxC .f32) : FVec Ideal SNxC .f32 :=
  fun i => ∑ k : Fin 256, X (lhsC i k) * W (rhsC i k)

/-- Bias, then the clamp at zero: max (A[n, j] + b[0, j]) 0. -/
def biasRelu (A : FVec Ideal SNxD .f32) (b : FVec Ideal S1xD .f32) : FVec Ideal SNxD .f32 :=
  fun i => max (A i + b (biasD i)) (Ideal.ofBits .f32 0x00000000#32)

/-- Bias, the clamp at zero, then the residual: max (A[n, j] + b[0, j]) 0 + R[n, j]. -/
def biasReluRes (A : FVec Ideal SNxD .f32) (b : FVec Ideal S1xD .f32) (R : FVec Ideal SNxD .f32) : FVec Ideal SNxD .f32 :=
  fun i => max (A i + b (biasD i)) (Ideal.ofBits .f32 0x00000000#32) + R i

/-- Bias only, on the class scores: A[n, j] + b[0, j]. -/
def biasOnly (A : FVec Ideal SNxC .f32) (b : FVec Ideal S1xC .f32) : FVec Ideal SNxC .f32 :=
  fun i => A i + b (biasC i)

end Cert.Gcn

end
-- ==== Proof.RefLayers.lean ====
/-
  The reference program's six layer stages are the specification's layers.

  Read over the extended reals, each of the reference's three matrix products is the dense layer of the stage
  before it, (X W)[n, j] = Σ_k X[n, k] · W[k, j], and each of its three closing steps is the bias step of the
  aggregated array before it: the bias b[j] laid along every row and added, then the clamp at zero
  (first layer), the clamp at zero and the first layer's output added back (second layer), or nothing more
  (class scores).  The bias enters the specification as the 1 × D row (0, j) ↦ b[j]; the reference lays the
  bias along the rows by two broadcasts, and both read b at the column j of the index.
-/
import proofs.«135195_j40699110097665_1_alg».proof.Proof.RefRead
import proofs.«135195_j40699110097665_1_alg».proof.Proof.Spec
import Idealize.ShloMosaic.Lib.Pipeline.Value
import Idealize.ShloMosaic.Lib.ValueIdx
import Idealize.ShloMosaic.PureOps.Ideal

noncomputable section

namespace Cert.ReferenceIdeal.Layers

open Cert.ReferenceIdeal Cert.ReferenceIdeal.ReadP Idealize.ShloMosaic
open scoped BigOperators

/-! ## The bias as a one-row array -/

/-- A bias of 256 entries recast as a 1 × 256 row: the row's entry (0, j), for the column j of an index into a
    50000 × 256 array, is the bias at any one-coordinate index whose coordinate is j. -/
theorem biasRow256 (b : (⟨S256, .f32⟩ : BufTy).Contents (Elt Ideal)) (h : S256.ShapeCasts S1x256) (i : S50000x256.Idx)
    (k : S256.Idx) (hk : (k 0).val = (i 1).val) : shapeCast S1x256 b h (Cert.Gcn.biasD i) = b k := by
  refine shapeCast_apply b h (Cert.Gcn.biasD i) k ?_
  rw [Shape.rowMajor_val_one, Shape.rowMajor_val_two]
  show (k 0).val = 0 * 256 + (i 1).val
  omega

/-- A bias of 7 entries recast as a 1 × 7 row: the row's entry (0, j), for the column j of an index into a
    50000 × 7 array, is the bias at any one-coordinate index whose coordinate is j. -/
theorem biasRow7 (b : (⟨S7, .f32⟩ : BufTy).Contents (Elt Ideal)) (h : S7.ShapeCasts S1x7) (i : S50000x7.Idx)
    (k : S7.Idx) (hk : (k 0).val = (i 1).val) : shapeCast S1x7 b h (Cert.Gcn.biasC i) = b k := by
  refine shapeCast_apply b h (Cert.Gcn.biasC i) k ?_
  rw [Shape.rowMajor_val_one, Shape.rowMajor_val_two]
  show (k 0).val = 0 * 7 + (i 1).val
  omega

/-! ## First layer -/

/-- The first matrix product is the dense layer of the node features: entry (n, j) is Σ_k X[n, k] · W₁[k, j]. -/
theorem val27_dense (x0 : (⟨S50000x256, .f32⟩ : BufTy).Contents (Elt Ideal)) (x2 : (⟨S256x256, .f32⟩ : BufTy).Contents (Elt Ideal)) :
    val_main_v27 (F := Ideal) x0 x2 = Cert.Gcn.denseD x0 x2 := by
  funext i
  rw [val_main_v27_apply]
  rfl

/-- The first closing step: the aggregated array plus the bias b₁[j] along every row, clamped at zero. -/
theorem val44_biasRelu (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (h : S256.ShapeCasts S1x256) :
    val_main_v44 (F := Ideal) x0 x1 x2 x3
      = Cert.Gcn.biasRelu (val_main_v40 (F := Ideal) x0 x1 x2) (shapeCast S1x256 x3 h) := by
  funext i
  rw [val_main_v44_apply, val_main_v43_apply, val_main_v42_apply, val_main_v41_apply,
    val_main_call0_v0_apply, val_main_call0_cst_apply]
  unfold Cert.Gcn.biasRelu
  rw [biasRow256 x3 h i (idx_main_v41 (idx_main_v42 i)) rfl]
  rfl

/-! ## Second layer -/

/-- The second matrix product is the dense layer of the first layer's output. -/
theorem val45_dense (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) :
    val_main_v45 (F := Ideal) x0 x1 x2 x3 x4
      = Cert.Gcn.denseD (val_main_v44 (F := Ideal) x0 x1 x2 x3) x4 := by
  funext i
  rw [val_main_v45_apply]
  rfl

/-- The second closing step: the aggregated array plus the bias b₂[j] along every row, clamped at zero, plus the
    first layer's output at the same entry. -/
theorem val63_biasReluRes (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (h : S256.ShapeCasts S1x256) :
    val_main_v63 (F := Ideal) x0 x1 x2 x3 x4 x5
      = Cert.Gcn.biasReluRes (val_main_v58 (F := Ideal) x0 x1 x2 x3 x4) (shapeCast S1x256 x5 h)
          (val_main_v44 (F := Ideal) x0 x1 x2 x3) := by
  funext i
  rw [val_main_v63_apply, val_main_v62_apply, val_main_v61_apply, val_main_v60_apply, val_main_v59_apply,
    val_main_call1_v0_apply, val_main_call1_cst_apply]
  unfold Cert.Gcn.biasReluRes
  rw [biasRow256 x5 h i (idx_main_v59 (idx_main_v60 i)) rfl]
  rfl

/-! ## Class scores -/

/-- The third matrix product is the dense layer, into the 7 classes, of the second layer's output. -/
theorem val64_dense (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x7, .f32⟩ : BufTy).Contents (Elt Ideal)) :
    val_main_v64 (F := Ideal) x0 x1 x2 x3 x4 x5 x6
      = Cert.Gcn.denseC (val_main_v63 (F := Ideal) x0 x1 x2 x3 x4 x5) x6 := by
  funext i
  rw [val_main_v64_apply]
  rfl

/-- The third closing step: the aggregated class scores plus the bias b₃[j] along every row. -/
theorem val80_biasOnly (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x7, .f32⟩ : BufTy).Contents (Elt Ideal)) (x7 : (⟨S7, .f32⟩ : BufTy).Contents (Elt Ideal)) (h : S7.ShapeCasts S1x7) :
    val_main_v80 (F := Ideal) x0 x1 x2 x3 x4 x5 x6 x7
      = Cert.Gcn.biasOnly (val_main_v77 (F := Ideal) x0 x1 x2 x3 x4 x5 x6) (shapeCast S1x7 x7 h) := by
  funext i
  rw [val_main_v80_apply, val_main_v79_apply, val_main_v78_apply]
  unfold Cert.Gcn.biasOnly
  rw [biasRow7 x7 h i (idx_main_v78 (idx_main_v79 i)) rfl]
  rfl

end Cert.ReferenceIdeal.Layers

end
-- ==== Proof.Dense0.lean ====
/-
  The first dense layer's tiled kernel: 25 blocks of 2000 rows.  Each block of the output is the matrix product of
  the same block of rows of the left array with the whole 256 × 256 right matrix; the blocks tile the 50000 rows,
  so the output array is the whole matrix product.
-/
import proofs.«135195_j40699110097665_1_alg».proof.Proof.Gen.KernelIdeal.Frame
import proofs.«135195_j40699110097665_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open scoped BigOperators

/-! ## The block product at an index -/

/-- Entry (r, k) of a 2000 × 256 block of rows, for the row r of an index into a 2000 × 256 block. -/
abbrev rowD (j : S2000x256.Idx) (k : Fin 256) : S2000x256.Idx := fun a => match a with
  | ⟨0, _⟩ => ⟨(j 0).val, (j 0).isLt⟩
  | ⟨1, _⟩ => ⟨k.val, k.isLt⟩
/-- Entry (k, q) of the 256 × 256 matrix, for the column q of an index into a 2000 × 256 block. -/
abbrev colD (j : S2000x256.Idx) (k : Fin 256) : S256x256.Idx := fun a => match a with
  | ⟨0, _⟩ => ⟨k.val, k.isLt⟩
  | ⟨1, _⟩ => ⟨(j 1).val, (j 1).isLt⟩

theorem lhsD_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsD_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhsD_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhsD_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block's product at an index: the two narrowings are the identity on extended reals and the accumulator is
    zero, so the entry is the plain sum over the 256 contraction indices. -/
theorem pay0_apply (x0 : Vec Ideal S2000x256 .f32) (x1 : Vec Ideal S256x256 .f32) (j : S2000x256.Idx) :
    k0_pay1 (F := Ideal) x0 x1 j = ∑ k : Fin 256, x0 (rowD j k) * x1 (colD j k) := by
  unfold k0_pay1
  refine (Ideal.matmul_constant_zero_apply dot_S2000x256_S256x256_S2000x256_1_0_0_1_n_n none _ _ j).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = rowD j k := funext fun a => Fin.ext (by
    match a with
    | ⟨0, _⟩ => exact lhsD_0 _ _
    | ⟨1, _⟩ => exact (lhsD_1 _ _).trans hk)
  have er : dot_S2000x256_S256x256_S2000x256_1_0_0_1_n_n.rhsIdx j ((ValueIdx.contrEquiv1 dot_S2000x256_S256x256_S2000x256_1_0_0_1_n_n 256 rfl rfl).symm k) = colD j k := funext fun a => Fin.ext (by
    match a with
    | ⟨0, _⟩ => exact (rhsD_0 _ _).trans hk
    | ⟨1, _⟩ => exact rhsD_1 _ _)
  rw [el, er]
  rfl

/-! ## From the blocks to the array -/

theorem zero_off0 : (![0, 0] : Fin 2 → Nat) = fun _ => 0 := funext fun a => by fin_cases a <;> rfl

/-- The block index maps over the 25 points: the row blocks of the left array and of the output move together,
    point t at block t; the right matrix is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole matrix product. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Cert.Gcn.denseD (V c main_arg0) (V c main_arg2)) := by
  show (cfg0.win 2).cut (grid0.coords t) ((dat0 V c).after 2 t) = _
  rw [after0_2]
  unfold out0_2
  rw [View.canon_unit_zero zero_off0]
  simp only [View.ld_unit_zero (S := S2000x256) zero_off0, View.ld_unit_zero (S := S256x256) zero_off0]
  obtain ⟨e0, e1, e2, e3, e4, e5⟩ := idx_facts0 t
  funext j
  refine (pay0_apply _ _ j).trans ?_
  show _ = Cert.Gcn.denseD (V c main_arg0) (V c main_arg2) (((cfg0.win 2).blk t).view.emb j)
  show _ = ∑ k : Fin 256, _
  refine Finset.sum_congr rfl fun k _ => ?_
  have h0 : (iblk0 V c 0 t (rowD j k) : Elt Ideal .f32) = V c main_arg0 (Cert.Gcn.lhsD (((cfg0.win 2).blk t).view.emb j) k) := by
    show V c main_arg0 (((cfg0.win 0).blk t).view.emb (rowD j k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : (iblk0 V c 1 t (colD j k) : Elt Ideal .f32) = V c main_arg2 (Cert.Gcn.rhsD (((cfg0.win 2).blk t).view.emb j) k) := by
    show V c main_arg2 (((cfg0.win 1).blk t).view.emb (colD j k)) = _
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  exact congrArg₂ (· * ·) h0 h1

/-- An index of the array is in point t's block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v27).slice (win0_2.rect t)).set ↔ _
  rw [View.set_slice_whole, Rect.mem_set_unit]
  exact Iff.rfl

/-- Every index of the array lies in some point's block: row r is in block r / 2000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨e0, e1, e2, e3, e4, e5⟩ := idx_facts0 t
  have ht : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The output array after the region is the matrix product of the two input arrays as the region found them. -/
theorem dense0_final (V : (c : Dev nD) → (b : Ref sig .tc) → Buf (Elt Ideal) ((c : Thread nD τ).loc b)) (c : Dev nD) :
    (dat0 (F := Ideal) V c).arrAt 2 cfg0.N = Cert.Gcn.denseD (V c main_arg0) (V c main_arg2) :=
  (dat0 (F := Ideal) V c).arrAt_eq_of_cover 2 (Cert.Gcn.denseD (V c main_arg0) (V c main_arg2)) (fun t _ => flushed0_eq V c t) cover0

end Cert.KernelIdeal.Layers

end
-- ==== Proof.Dense2.lean ====
/-
  The second dense layer's tiled kernel: 25 blocks of 2000 rows.  Each block of the output is the matrix product of
  the same block of rows of the left array with the whole 256 × 256 right matrix; the blocks tile the 50000 rows,
  so the output array is the whole matrix product.
-/
import proofs.«135195_j40699110097665_1_alg».proof.Proof.Gen.KernelIdeal.Frame
import proofs.«135195_j40699110097665_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open scoped BigOperators

/-! ## The block product at an index -/

/-- Entry (r, k) of a 2000 × 256 block of rows, for the row r of an index into a 2000 × 256 block. -/
abbrev rowD2 (j : S2000x256.Idx) (k : Fin 256) : S2000x256.Idx := fun a => match a with
  | ⟨0, _⟩ => ⟨(j 0).val, (j 0).isLt⟩
  | ⟨1, _⟩ => ⟨k.val, k.isLt⟩
/-- Entry (k, q) of the 256 × 256 matrix, for the column q of an index into a 2000 × 256 block. -/
abbrev colD2 (j : S2000x256.Idx) (k : Fin 256) : S256x256.Idx := fun a => match a with
  | ⟨0, _⟩ => ⟨k.val, k.isLt⟩
  | ⟨1, _⟩ => ⟨(j 1).val, (j 1).isLt⟩

theorem lhsD2_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsD2_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhsD2_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhsD2_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block's product at an index: the cast to the same shape and the two narrowings are the identity on extended
    reals and the accumulator is zero, so the entry is the plain sum over the 256 contraction indices. -/
theorem pay2_apply (x0 : Vec Ideal S2000x256 .f32) (x1 : Vec Ideal S256x256 .f32) (j : S2000x256.Idx) :
    k2_pay1 (F := Ideal) x0 x1 j = ∑ k : Fin 256, x0 (rowD2 j k) * x1 (colD2 j k) := by
  unfold k2_pay1
  rw [shapeCast_self]
  refine (Ideal.matmul_constant_zero_apply dot_S2000x256_S256x256_S2000x256_1_0_0_1_n_n none _ _ j).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = rowD2 j k := funext fun a => Fin.ext (by
    match a with
    | ⟨0, _⟩ => exact lhsD2_0 _ _
    | ⟨1, _⟩ => exact (lhsD2_1 _ _).trans hk)
  have er : dot_S2000x256_S256x256_S2000x256_1_0_0_1_n_n.rhsIdx j ((ValueIdx.contrEquiv1 dot_S2000x256_S256x256_S2000x256_1_0_0_1_n_n 256 rfl rfl).symm k) = colD2 j k := funext fun a => Fin.ext (by
    match a with
    | ⟨0, _⟩ => exact (rhsD2_0 _ _).trans hk
    | ⟨1, _⟩ => exact rhsD2_1 _ _)
  rw [el, er]
  rfl

/-! ## From the blocks to the array -/

theorem zero_off2 : (![0, 0] : Fin 2 → Nat) = fun _ => 0 := funext fun a => by fin_cases a <;> rfl

/-- The block index maps over the 25 points: the row blocks of the left array and of the output move together,
    point t at block t; the right matrix is one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole matrix product. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (Cert.Gcn.denseD (V c main_v42) (V c main_arg4)) := by
  show (cfg2.win 2).cut (grid2.coords t) ((dat2 V c).after 2 t) = _
  rw [after2_2]
  unfold out2_2
  rw [View.canon_unit_zero zero_off2]
  simp only [View.ld_unit_zero (S := S2000x256) zero_off2, View.ld_unit_zero (S := S256x256) zero_off2]
  obtain ⟨e0, e1, e2, e3, e4, e5⟩ := idx_facts2 t
  funext j
  refine (pay2_apply _ _ j).trans ?_
  show _ = Cert.Gcn.denseD (V c main_v42) (V c main_arg4) (((cfg2.win 2).blk t).view.emb j)
  show _ = ∑ k : Fin 256, _
  refine Finset.sum_congr rfl fun k _ => ?_
  have h0 : (iblk2 V c 0 t (rowD2 j k) : Elt Ideal .f32) = V c main_v42 (Cert.Gcn.lhsD (((cfg2.win 2).blk t).view.emb j) k) := by
    show V c main_v42 (((cfg2.win 0).blk t).view.emb (rowD2 j k)) = _
    refine congrArg _ (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  have h1 : (iblk2 V c 1 t (colD2 j k) : Elt Ideal .f32) = V c main_arg4 (Cert.Gcn.rhsD (((cfg2.win 2).blk t).view.emb j) k) := by
    show V c main_arg4 (((cfg2.win 1).blk t).view.emb (colD2 j k)) = _
    refine congrArg _ (funext fun a => Fin.ext ?_)
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega
  exact congrArg₂ (· * ·) h0 h1

/-- An index of the array is in point t's block iff each coordinate is in the block's range on its axis. -/
theorem mem_blk2 (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v43).slice (win2_2.rect t)).set ↔ _
  rw [View.set_slice_whole, Rect.mem_set_unit]
  exact Iff.rfl

/-- Every index of the array lies in some point's block: row r is in block r / 2000. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  let t : Fin cfg2.N := ⟨(i 0).val / 2000, by rw [hN]; omega⟩
  obtain ⟨e0, e1, e2, e3, e4, e5⟩ := idx_facts2 t
  have ht : t.val = (i 0).val / 2000 := rfl
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- The output array after the region is the matrix product of the two input arrays as the region found them. -/
theorem dense2_final (V : (c : Dev nD) → (b : Ref sig .tc) → Buf (Elt Ideal) ((c : Thread nD τ).loc b)) (c : Dev nD) :
    (dat2 (F := Ideal) V c).arrAt 2 cfg2.N = Cert.Gcn.denseD (V c main_v42) (V c main_arg4) :=
  (dat2 (F := Ideal) V c).arrAt_eq_of_cover 2 (Cert.Gcn.denseD (V c main_v42) (V c main_arg4)) (fun t _ => flushed2_eq V c t) cover2

end Cert.KernelIdeal.Layers

end
-- ==== Proof.Dense4.lean ====
/-
  The classifier's dense layer as a tiled kernel: 25 blocks of 2000 rows.  Each 2000 × 7 block of the output is the
  matrix product of the same block of rows of the left array with the whole 256 × 7 right matrix; the blocks tile
  the 50000 rows, so the output array is the whole matrix product.
-/
import proofs.«135195_j40699110097665_1_alg».proof.Proof.Gen.KernelIdeal.Frame
import proofs.«135195_j40699110097665_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open scoped BigOperators

/-! ## The block product at an index -/

/-- Entry (r, k) of a 2000 × 256 block of rows, for the row r of an index into a 2000 × 7 block. -/
abbrev rowC (j : S2000x7.Idx) (k : Fin 256) : S2000x256.Idx := fun a => match a with
  | ⟨0, _⟩ => ⟨(j 0).val, (j 0).isLt⟩
  | ⟨1, _⟩ => ⟨k.val, k.isLt⟩
/-- Entry (k, q) of the 256 × 7 matrix, for the column q of an index into a 2000 × 7 block. -/
abbrev colC (j : S2000x7.Idx) (k : Fin 256) : S256x7.Idx := fun a => match a with
  | ⟨0, _⟩ => ⟨k.val, k.isLt⟩
  | ⟨1, _⟩ => ⟨(j 1).val, (j 1).isLt⟩

theorem lhsC4_0 (i : S2000x7.Idx) (q : dot_S2000x256_S256x7_S2000x7_1_0_0_1_n_n.contr.Idx) :
    (dot_S2000x256_S256x7_S2000x7_1_0_0_1_n_n.lhsIdx i q 0).val = (i 0).val := by
  unfold DotDims.lhsIdx
  rw [dif_neg (show ¬(0 : Fin S2000x256.rank) ∈ dot_S2000x256_S256x7_S2000x7_1_0_0_1_n_n.lhsBatch by decide), dif_pos (show (0 : Fin S2000x256.rank) ∈ dot_S2000x256_S256x7_S2000x7_1_0_0_1_n_n.lhsNonContracting by decide)]
  rfl
theorem lhsC4_1 (i : S2000x7.Idx) (q : dot_S2000x256_S256x7_S2000x7_1_0_0_1_n_n.contr.Idx) :
    (dot_S2000x256_S256x7_S2000x7_1_0_0_1_n_n.lhsIdx i q 1).val = (q ⟨0, by decide⟩).val :=
  dot_S2000x256_S256x7_S2000x7_1_0_0_1_n_n.lhsIdx_val_of_single rfl i q
theorem rhsC4_0 (i : S2000x7.Idx) (q : dot_S2000x256_S256x7_S2000x7_1_0_0_1_n_n.contr.Idx) :
    (dot_S2000x256_S256x7_S2000x7_1_0_0_1_n_n.rhsIdx i q 0).val = (q ⟨0, by decide⟩).val :=
  dot_S2000x256_S256x7_S2000x7_1_0_0_1_n_n.rhsIdx_val_of_single rfl i q
theorem rhsC4_1 (i : S2000x7.Idx) (q : dot_S2000x256_S256x7_S2000x7_1_0_0_1_n_n.contr.Idx) :
    (dot_S2000x256_S256x7_S2000x7_1_0_0_1_n_n.rhsIdx i q 1).val = (i 1).val := by
  unfold DotDims.rhsIdx
  rw [dif_neg (show ¬(1 : Fin S256x7.rank) ∈ dot_S2000x256_S256x7_S2000x7_1_0_0_1_n_n.rhsBatch by decide), dif_pos (show (1 : Fin S256x7.rank) ∈ dot_S2000x256_S256x7_S2000x7_1_0_0_1_n_n.rhsNonContracting by decide)]
  rfl

/-- The block's product at an index: the cast to the same shape and the two narrowings are the identity on extended
    reals and the accumulator is zero, so the entry is the plain sum over the 256 contraction indices. -/
theorem pay4_apply (x0 : Vec Ideal S2000x256 .f32) (x1 : Vec Ideal S256x7 .f32) (j : S2000x7.Idx) :
    k4_pay1 (F := Ideal) x0 x1 j = ∑ k : Fin 256, x0 (rowC j k) * x1 (colC j k) := by
  unfold k4_pay1
  rw [shapeCast_self]
  refine (Ideal.matmul_constant_zero_apply dot_S2000x256_S256x7_S2000x7_1_0_0_1_n_n none _ _ j).trans ?_
  rw [← Equiv.sum_comp (ValueIdx.contrEquiv1 dot_S2000x256_S256x7_S2000x7_1_0_0_1_n_n 256 rfl rfl).symm]
  refine Finset.sum_congr rfl fun k _ => ?_
  have hk := ValueIdx.contrEquiv1_symm_val dot_S2000x256_S256x7_S2000x7_1_0_0_1_n_n 256 rfl rfl k
  have el : dot_S2000x256_S256x7_S2000x7_1_0_0_1_n_n.lhsIdx j ((ValueIdx.contrEquiv1 dot_S2000x256_S256x7_S2000x7_1_0_0_1_n_n 256 rfl rfl).symm k) = rowC j k := funext fun a => Fin.ext (by
    match a with
    | ⟨0, _⟩ => exact lhsC4_0 _ _
    | ⟨1, _⟩ => exact (lhsC4_1 _ _).trans hk)
  have er : dot_S2000x256_S256x7_S2000x7_1_0_0_1_n_n.rhsIdx j ((ValueIdx.contrEquiv1 dot_S2000x256_S256x7_S2000x7_1_0_0_1_n_n 256 rfl rfl).symm k) = colC j k := funext fun a => Fin.ext (by
    match a with
    | ⟨0, _⟩ => exact (rhsC4_0 _ _).trans hk
    | ⟨1, _⟩ => exact rhsC4_1 _ _)
  rw [el, er]
  rfl

/-! ## From the blocks to the array -/

theorem zero_off4 : (![0, 0] : Fin 2 → Nat) = fun _ => 0 := funext fun a => by fin_cases a <;> rfl

/-- The block index maps over the 25 points: the row blocks of the left array and of the output move together,
    point t at block t; the right matrix is one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole matrix product. -/
theorem flushed4_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal) (Cert.Gcn.denseC (V c main_v58) (V c main_arg6)) := by
  show (cfg4.win 2).cut (grid4.coords t) ((dat4 V c).after 2 t) = _
  rw [after4_2]
  unfold out4_2
  rw [View.canon_unit_zero zero_off4]
  simp only [View.ld_unit_zero (S := S2000x256) zero_off4, View.ld_unit_zero (S := S256x7) zero_off4]
  obtain ⟨e0, e1, e2, e3, e4, e5⟩ := idx_facts4 t
  funext j
  refine (pay4_apply _ _ j).trans ?_
  show _ = Cert.Gcn.denseC (V c main_v58) (V c main_arg6) (((cfg4.win 2).blk t).view.emb j)
  show _ = ∑ k : Fin 256, _
  refine Finset.sum_congr rfl fun k _ => ?_
  have h0 : (iblk4 V c 0 t (rowC j k) : Elt Ideal .f32) = V c main_v58 (Cert.Gcn.lhsC (((cfg4.win 2).blk t).view.emb j) k) := by
    show V c main_v58 (((cfg4.win 0).blk t).view.emb (rowC j k)) = _
    refine congrArg _ (funext fun a => Fin.ext ?_)
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 256 + 1 * k.val = k.val; omega
  have h1 : (iblk4 V c 1 t (colC j k) : Elt Ideal .f32) = V c main_arg6 (Cert.Gcn.rhsC (((cfg4.win 2).blk t).view.emb j) k) := by
    show V c main_arg6 (((cfg4.win 1).blk t).view.emb (colC j k)) = _
    refine congrArg _ (funext fun a => Fin.ext ?_)
    match a with
    | ⟨0, _⟩ => show win4_1.index t (0 : Fin 2) * 256 + 1 * k.val = k.val; omega
    | ⟨1, _⟩ => show win4_1.index t (1 : Fin 2) * 7 + 1 * (j 1).val = win4_2.index t (1 : Fin 2) * 7 + 1 * (j 1).val; omega
  exact congrArg₂ (· * ·) h0 h1

/-- An index of the array is in point t's block iff each coordinate is in the block's range on its axis. -/
theorem mem_blk4 (t : Fin cfg4.N) (i : S50000x7.Idx) :
    i ∈ ((cfg4.win 2).blk t).view.set ↔ ∀ a : Fin 2, win4_2.index t a * S2000x7.size a ≤ (i a).val ∧ (i a).val < win4_2.index t a * S2000x7.size a + S2000x7.size a := by
  show i ∈ ((View.whole main_v59).slice (win4_2.rect t)).set ↔ _
  rw [View.set_slice_whole, Rect.mem_set_unit]
  exact Iff.rfl

/-- Every index of the array lies in some point's block: row r is in block r / 2000. -/
theorem cover4 (i : S50000x7.Idx) :
    ∃ t : Fin cfg4.N, (cfg4.win 2).flush t = true ∧ i ∈ ((cfg4.win 2).blk t).view.set := by
  have hi0 : (i 0).val < 50000 := (i 0).isLt
  have hi1 : (i 1).val < 7 := (i 1).isLt
  have hN : cfg4.N = 25 := N_4
  let t : Fin cfg4.N := ⟨(i 0).val / 2000, by rw [hN]; omega⟩
  obtain ⟨e0, e1, e2, e3, e4, e5⟩ := idx_facts4 t
  have ht : t.val = (i 0).val / 2000 := rfl
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 7 ≤ (i 1).val ∧ (i 1).val < win4_2.index t (1 : Fin 2) * 7 + 7; omega

/-- The output array after the region is the matrix product of the two input arrays as the region found them. -/
theorem dense4_final (V : (c : Dev nD) → (b : Ref sig .tc) → Buf (Elt Ideal) ((c : Thread nD τ).loc b)) (c : Dev nD) :
    (dat4 (F := Ideal) V c).arrAt 2 cfg4.N = Cert.Gcn.denseC (V c main_v58) (V c main_arg6) :=
  (dat4 (F := Ideal) V c).arrAt_eq_of_cover 2 (Cert.Gcn.denseC (V c main_v58) (V c main_arg6)) (fun t _ => flushed4_eq V c t) cover4

end Cert.KernelIdeal.Layers

end
-- ==== Proof.Close1.lean ====
/-
  The first closing step, from blocks to the whole array.  The step works on 25 blocks of 2000 rows of a
  50000 × 256 array: block t holds rows 2000·t … 2000·t + 1999, all 256 columns.  On its block it adds the bias row
  (the one row of a 1 × 256 array, the same at every block, broadcast down the 2000 rows) and clamps at zero.
  Entry (p, q) of block t depends on entry (2000·t + p, q) of the aggregated array and on entry (0, q) of the bias
  row only, so each block written back is the block of ONE whole-array function, max (A[n, j] + b[0, j]) 0, and the
  25 blocks cover the array: row n lies in block n / 2000.
-/
import proofs.«135195_j40699110097665_1_alg».proof.Proof.Gen.KernelIdeal.Frame
import proofs.«135195_j40699110097665_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)

/-- The offset of a whole-block access: zero on both axes. -/
theorem zero_offset1 : (![0, 0] : Fin 2 → Nat) = fun _ => 0 := funext fun a => by fin_cases a <;> rfl

/-- The block's arithmetic at entry (p, q): the block of the aggregated array at (p, q), plus the bias row at
    (0, q), clamped at zero.  The two casts keep the shape; the row broadcast reads row 0. -/
theorem pay1_apply (x0 : Vec Ideal S2000x256 .f32) (x1 : Vec Ideal S1x256 .f32) (p : Fin 2000) (q : Fin 256) :
    k1_pay1 x0 x1 (ValueIdx.ix2 p q)
      = max (x0 (ValueIdx.ix2 p q) + x1 (ValueIdx.ix2 (0 : Fin 1) q)) (Ideal.ofBits .f32 0x00000000#32) := by
  unfold k1_pay1
  simp only [shapeCast_self]
  rw [ValueIdx.maximumf_apply, ValueIdx.addf_apply, ValueIdx.broadcast_apply]
  rw [ValueIdx.broadcastTo_1b_ab_apply]
  rfl

/-- The whole-array function at an index, from the entries it reads: the aggregated array at the same index and
    the bias row at row 0 of the same column. -/
theorem at_index1 (A : FVec Ideal Cert.Gcn.SNxD .f32) (b : FVec Ideal Cert.Gcn.S1xD .f32)
    (i0 i2 : Cert.Gcn.SNxD.Idx) (i1 : Cert.Gcn.S1xD.Idx) (h0 : i0 = i2) (h1 : i1 = Cert.Gcn.biasD i2) :
    max (A i0 + b i1) (Ideal.ofBits .f32 0x00000000#32) = Cert.Gcn.biasRelu A b i2 := by
  subst h0 h1; rfl

/-- Where the blocks sit, decided over the 25 points: the aggregated array's block and the result's block are
    block t of the rows and the only block of the columns; the bias row's block is always the whole row. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the whole-array function. -/
theorem flushed1_eq (c : Dev nD) (t : Fin cfg1.N) :
    (dat1 (F := Ideal) V c).flushed 2 t
      = ((cfg1.win 2).blk t).view.read (Elt Ideal) (Cert.Gcn.biasRelu (V c main_v40) (V c main_v41)) := by
  show (cfg1.win 2).cut (grid1.coords t) ((dat1 V c).after 2 t) = _
  rw [after1_2]
  unfold out1_2
  rw [View.canon_unit_zero zero_offset1]
  simp only [View.ld_unit_zero (S := S2000x256) zero_offset1, View.ld_unit_zero (S := S1x256) zero_offset1]
  obtain ⟨e0, e1, e2, e3, e4, e5⟩ := idx_facts1 t
  funext j
  obtain ⟨p, q, rfl⟩ : ∃ (p : Fin 2000) (q : Fin 256), j = ValueIdx.ix2 p q := ⟨j 0, j 1, ValueIdx.eq_ix2 j⟩
  refine (pay1_apply (iblk1 V c 0 t) (iblk1 V c 1 t) p q).trans ?_
  have h0 : ((cfg1.win 0).blk t).view.emb (ValueIdx.ix2 p q) = ((cfg1.win 2).blk t).view.emb (ValueIdx.ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * q.val = win1_2.index t (1 : Fin 2) * 256 + 1 * q.val; omega
  have h1 : ((cfg1.win 1).blk t).view.emb (ValueIdx.ix2 (0 : Fin 1) q)
      = Cert.Gcn.biasD (((cfg1.win 2).blk t).view.emb (ValueIdx.ix2 p q)) := by
    funext a; apply Fin.ext
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega
  exact at_index1 (V c main_v40) (V c main_v41) _ _ _ h0 h1

/-- An index of the array is in point t's block iff each coordinate is in the block's range on its axis. -/
theorem mem_blk1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v42).slice (win1_2.rect t)).set ↔ _
  rw [View.set_slice_whole, Rect.mem_set_unit]
  exact Iff.rfl

/-- Every index of the array lies in some point's block: row n in block n / 2000. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨e0, e1, e2, e3, e4, e5⟩ := idx_facts1 t
  have ht : t.val = (i 0).val / 2000 := rfl
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- The array after the first closing step is bias-then-clamp of the arrays the step found. -/
theorem close1_final (c : Dev nD) :
    (dat1 (F := Ideal) V c).arrAt 2 cfg1.N = Cert.Gcn.biasRelu (V c main_v40) (V c main_v41) :=
  (dat1 (F := Ideal) V c).arrAt_eq_of_cover 2 (Cert.Gcn.biasRelu (V c main_v40) (V c main_v41))
    (fun t _ => flushed1_eq V c t) cover1

end Cert.KernelIdeal.Layers

end
-- ==== Proof.Close3.lean ====
/-
  The second closing step, from blocks to the whole array.  The step works on 25 blocks of 2000 rows of a
  50000 × 256 array: block t holds rows 2000·t … 2000·t + 1999, all 256 columns.  On its block it adds the bias row
  (the one row of a 1 × 256 array, the same at every block, broadcast down the 2000 rows), clamps at zero and adds
  the residual array's block.  Entry (p, q) of block t depends on entry (2000·t + p, q) of the aggregated array, on
  entry (0, q) of the bias row and on entry (2000·t + p, q) of the residual array only, so each block written back is
  the block of ONE whole-array function, max (A[n, j] + b[0, j]) 0 + R[n, j], and the 25 blocks cover the array:
  row n lies in block n / 2000.
-/
import proofs.«135195_j40699110097665_1_alg».proof.Proof.Gen.KernelIdeal.Frame
import proofs.«135195_j40699110097665_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)

/-- The offset of a whole-block access: zero on both axes. -/
theorem zero_offset3 : (![0, 0] : Fin 2 → Nat) = fun _ => 0 := funext fun a => by fin_cases a <;> rfl

/-- The block's arithmetic at entry (p, q): the block of the aggregated array at (p, q), plus the bias row at
    (0, q), clamped at zero, plus the residual block at (p, q).  The casts keep the shape; the row broadcast reads
    row 0. -/
theorem pay3_apply (x0 : Vec Ideal S2000x256 .f32) (x1 : Vec Ideal S1x256 .f32) (x2 : Vec Ideal S2000x256 .f32)
    (p : Fin 2000) (q : Fin 256) :
    k3_pay1 x0 x1 x2 (ValueIdx.ix2 p q)
      = max (x0 (ValueIdx.ix2 p q) + x1 (ValueIdx.ix2 (0 : Fin 1) q)) (Ideal.ofBits .f32 0x00000000#32)
        + x2 (ValueIdx.ix2 p q) := by
  unfold k3_pay1
  simp only [shapeCast_self]
  rw [ValueIdx.addf_apply, ValueIdx.maximumf_apply, ValueIdx.addf_apply, ValueIdx.broadcast_apply]
  rw [ValueIdx.broadcastTo_1b_ab_apply]
  rfl

/-- The whole-array function at an index, from the entries it reads: the aggregated array and the residual array
    at the same index and the bias row at row 0 of the same column. -/
theorem at_index3 (A : FVec Ideal Cert.Gcn.SNxD .f32) (b : FVec Ideal Cert.Gcn.S1xD .f32) (R : FVec Ideal Cert.Gcn.SNxD .f32)
    (i0 i2 i3 : Cert.Gcn.SNxD.Idx) (i1 : Cert.Gcn.S1xD.Idx) (h0 : i0 = i3) (h1 : i1 = Cert.Gcn.biasD i3) (h2 : i2 = i3) :
    max (A i0 + b i1) (Ideal.ofBits .f32 0x00000000#32) + R i2 = Cert.Gcn.biasReluRes A b R i3 := by
  subst h0 h1 h2; rfl

/-- Where the blocks sit, decided over the 25 points: the aggregated array's, the residual array's and the
    result's blocks are block t of the rows and the only block of the columns; the bias row's block is always the
    whole row. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point t writes back is block t of the whole-array function. -/
theorem flushed3_eq (c : Dev nD) (t : Fin cfg3.N) :
    (dat3 (F := Ideal) V c).flushed 3 t
      = ((cfg3.win 3).blk t).view.read (Elt Ideal)
          (Cert.Gcn.biasReluRes (V c main_v56) (V c main_v57) (V c main_v42)) := by
  show (cfg3.win 3).cut (grid3.coords t) ((dat3 V c).after 3 t) = _
  rw [after3_3]
  unfold out3_3
  rw [View.canon_unit_zero zero_offset3]
  simp only [View.ld_unit_zero (S := S2000x256) zero_offset3, View.ld_unit_zero (S := S1x256) zero_offset3]
  obtain ⟨e0, e1, e2, e3, e4, e5, e6, e7⟩ := idx_facts3 t
  funext j
  obtain ⟨p, q, rfl⟩ : ∃ (p : Fin 2000) (q : Fin 256), j = ValueIdx.ix2 p q := ⟨j 0, j 1, ValueIdx.eq_ix2 j⟩
  refine (pay3_apply (iblk3 V c 0 t) (iblk3 V c 1 t) (iblk3 V c 2 t) p q).trans ?_
  have h0 : ((cfg3.win 0).blk t).view.emb (ValueIdx.ix2 p q) = ((cfg3.win 3).blk t).view.emb (ValueIdx.ix2 p q) := by
    funext a; apply Fin.ext
    match a with
    | ⟨0, _⟩ => show win3_0.index t (0 : Fin 2) * 2000 + 1 * p.val = win3_3.index t (0 : Fin 2) * 2000 + 1 * p.val; omega
    | ⟨1, _⟩ => show win3_0.index t (1 : Fin 2) * 256 + 1 * q.val = win3_3.index t (1 : Fin 2) * 256 + 1 * q.val; omega
  have h1 : ((cfg3.win 1).blk t).view.emb (ValueIdx.ix2 (0 : Fin 1) q)
      = Cert.Gcn.biasD (((cfg3.win 3).blk t).view.emb (ValueIdx.ix2 p q)) := by
    funext a; apply Fin.ext
    match a with
    | ⟨0, _⟩ => show win3_1.index t (0 : Fin 2) * 1 + 1 * 0 = 0; omega
    | ⟨1, _⟩ => show win3_1.index t (1 : Fin 2) * 256 + 1 * q.val = win3_3.index t (1 : Fin 2) * 256 + 1 * q.val; omega
  have h2 : ((cfg3.win 2).blk t).view.emb (ValueIdx.ix2 p q) = ((cfg3.win 3).blk t).view.emb (ValueIdx.ix2 p q) := by
    funext a; apply Fin.ext
    match a with
    | ⟨0, _⟩ => show win3_2.index t (0 : Fin 2) * 2000 + 1 * p.val = win3_3.index t (0 : Fin 2) * 2000 + 1 * p.val; omega
    | ⟨1, _⟩ => show win3_2.index t (1 : Fin 2) * 256 + 1 * q.val = win3_3.index t (1 : Fin 2) * 256 + 1 * q.val; omega
  exact at_index3 (V c main_v56) (V c main_v57) (V c main_v42) _ _ _ _ h0 h1 h2

/-- An index of the array is in point t's block iff each coordinate is in the block's range on its axis. -/
theorem mem_blk3 (t : Fin cfg3.N) (i : S50000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v58).slice (win3_3.rect t)).set ↔ _
  rw [View.set_slice_whole, Rect.mem_set_unit]
  exact Iff.rfl

/-- Every index of the array lies in some point's block: row n in block n / 2000. -/
theorem cover3 (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  obtain ⟨e0, e1, e2, e3, e4, e5, e6, e7⟩ := idx_facts3 t
  have ht : t.val = (i 0).val / 2000 := rfl
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-- The array after the second closing step is bias, clamp, then residual, of the arrays the step found. -/
theorem close3_final (c : Dev nD) :
    (dat3 (F := Ideal) V c).arrAt 3 cfg3.N
      = Cert.Gcn.biasReluRes (V c main_v56) (V c main_v57) (V c main_v42) :=
  (dat3 (F := Ideal) V c).arrAt_eq_of_cover 3 (Cert.Gcn.biasReluRes (V c main_v56) (V c main_v57) (V c main_v42))
    (fun t _ => flushed3_eq V c t) cover3

end Cert.KernelIdeal.Layers

end
-- ==== Proof.Close5.lean ====
/-
  The third closing step, from blocks to the whole array.  The step works on 25 blocks of 2000 rows of a
  50000 × 7 array of class scores: block t holds rows 2000·t … 2000·t + 1999, all 7 columns.  On its block it adds
  the bias row (the one row of a 1 × 7 array, the same at every block, broadcast down the 2000 rows) and nothing
  more.  Entry (p, q) of block t depends on entry (2000·t + p, q) of the aggregated array and on entry (0, q) of the
  bias row only, so each block written back is the block of ONE whole-array function, A[n, j] + b[0, j], and the 25
  blocks cover the array: row n lies in block n / 2000.
-/
import proofs.«135195_j40699110097665_1_alg».proof.Proof.Gen.KernelIdeal.Frame
import proofs.«135195_j40699110097665_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)

/-- The offset of a whole-block access: zero on both axes. -/
theorem zero_offset5 : (![0, 0] : Fin 2 → Nat) = fun _ => 0 := funext fun a => by fin_cases a <;> rfl

/-- The block's arithmetic at entry (p, q): the block of the aggregated array at (p, q), plus the bias row at
    (0, q).  The casts keep the shape; the row broadcast reads row 0. -/
theorem pay5_apply (x0 : Vec Ideal S2000x7 .f32) (x1 : Vec Ideal S1x7 .f32) (p : Fin 2000) (q : Fin 7) :
    k5_pay1 x0 x1 (ValueIdx.ix2 p q) = x0 (ValueIdx.ix2 p q) + x1 (ValueIdx.ix2 (0 : Fin 1) q) := by
  unfold k5_pay1
  simp only [shapeCast_self]
  rw [ValueIdx.addf_apply]
  rw [ValueIdx.broadcastTo_1b_ab_apply]

/-- The whole-array function at an index, from the entries it reads: the aggregated array at the same index and
    the bias row at row 0 of the same column. -/
theorem at_index5 (A : FVec Ideal Cert.Gcn.SNxC .f32) (b : FVec Ideal Cert.Gcn.S1xC .f32)
    (i0 i2 : Cert.Gcn.SNxC.Idx) (i1 : Cert.Gcn.S1xC.Idx) (h0 : i0 = i2) (h1 : i1 = Cert.Gcn.biasC i2) :
    A i0 + b i1 = Cert.Gcn.biasOnly A b i2 := by
  subst h0 h1; rfl

/-- Where the blocks sit, decided over the 25 points: the aggregated array's block and the result's block are
    block t of the rows and the only block of the columns; the bias row's block is always the whole row. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- What point t writes back is block t of the whole-array function. -/
theorem flushed5_eq (c : Dev nD) (t : Fin cfg5.N) :
    (dat5 (F := Ideal) V c).flushed 2 t
      = ((cfg5.win 2).blk t).view.read (Elt Ideal) (Cert.Gcn.biasOnly (V c main_v72) (V c main_v73)) := by
  show (cfg5.win 2).cut (grid5.coords t) ((dat5 V c).after 2 t) = _
  rw [after5_2]
  unfold out5_2
  rw [View.canon_unit_zero zero_offset5]
  simp only [View.ld_unit_zero (S := S2000x7) zero_offset5, View.ld_unit_zero (S := S1x7) zero_offset5]
  obtain ⟨e0, e1, e2, e3, e4, e5⟩ := idx_facts5 t
  funext j
  obtain ⟨p, q, rfl⟩ : ∃ (p : Fin 2000) (q : Fin 7), j = ValueIdx.ix2 p q := ⟨j 0, j 1, ValueIdx.eq_ix2 j⟩
  refine (pay5_apply (iblk5 V c 0 t) (iblk5 V c 1 t) p q).trans ?_
  have h0 : ((cfg5.win 0).blk t).view.emb (ValueIdx.ix2 p q) = ((cfg5.win 2).blk t).view.emb (ValueIdx.ix2 p q) := by
    funext a; apply Fin.ext
    match a with
    | ⟨0, _⟩ => show win5_0.index t (0 : Fin 2) * 2000 + 1 * p.val = win5_2.index t (0 : Fin 2) * 2000 + 1 * p.val; omega
    | ⟨1, _⟩ => show win5_0.index t (1 : Fin 2) * 7 + 1 * q.val = win5_2.index t (1 : Fin 2) * 7 + 1 * q.val; omega
  have h1 : ((cfg5.win 1).blk t).view.emb (ValueIdx.ix2 (0 : Fin 1) q)
      = Cert.Gcn.biasC (((cfg5.win 2).blk t).view.emb (ValueIdx.ix2 p q)) := by
    funext a; apply Fin.ext
    match a with
    | ⟨0, _⟩ => show win5_1.index t (0 : Fin 2) * 1 + 1 * 0 = 0; omega
    | ⟨1, _⟩ => show win5_1.index t (1 : Fin 2) * 7 + 1 * q.val = win5_2.index t (1 : Fin 2) * 7 + 1 * q.val; omega
  exact at_index5 (V c main_v72) (V c main_v73) _ _ _ h0 h1

/-- An index of the array is in point t's block iff each coordinate is in the block's range on its axis. -/
theorem mem_blk5 (t : Fin cfg5.N) (i : S50000x7.Idx) :
    i ∈ ((cfg5.win 2).blk t).view.set ↔ ∀ a : Fin 2, win5_2.index t a * S2000x7.size a ≤ (i a).val ∧ (i a).val < win5_2.index t a * S2000x7.size a + S2000x7.size a := by
  show i ∈ ((View.whole main_v74).slice (win5_2.rect t)).set ↔ _
  rw [View.set_slice_whole, Rect.mem_set_unit]
  exact Iff.rfl

/-- Every index of the array lies in some point's block: row n in block n / 2000. -/
theorem cover5 (i : S50000x7.Idx) :
    ∃ t : Fin cfg5.N, (cfg5.win 2).flush t = true ∧ i ∈ ((cfg5.win 2).blk t).view.set := by
  have hi0 : (i 0).val < 50000 := (i 0).isLt
  have hi1 : (i 1).val < 7 := (i 1).isLt
  have hN : cfg5.N = 25 := N_5
  let t : Fin cfg5.N := ⟨(i 0).val / 2000, by rw [hN]; omega⟩
  obtain ⟨e0, e1, e2, e3, e4, e5⟩ := idx_facts5 t
  have ht : t.val = (i 0).val / 2000 := rfl
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 7 ≤ (i 1).val ∧ (i 1).val < win5_2.index t (1 : Fin 2) * 7 + 7; omega

/-- The array after the third closing step is the bias added to the array the step found. -/
theorem close5_final (c : Dev nD) :
    (dat5 (F := Ideal) V c).arrAt 2 cfg5.N = Cert.Gcn.biasOnly (V c main_v72) (V c main_v73) :=
  (dat5 (F := Ideal) V c).arrAt_eq_of_cover 2 (Cert.Gcn.biasOnly (V c main_v72) (V c main_v73))
    (fun t _ => flushed5_eq V c t) cover5

end Cert.KernelIdeal.Layers

end
-- ==== Proof.Chain.lean ====
/-
  The tiled program's result is the reference's last staged value.  Boundary by boundary through the program's eleven
  segments: a dense region leaves the matrix product of the two arrays it found (25 row blocks of 2000 nodes, each the
  product of its block of rows with the whole weight matrix, cover the 50000 nodes), which is the reference's
  dot_general of the same two arrays; a host stretch then computes the reference's aggregation of it; a closing
  region leaves bias, clamp and residual applied entry by entry, which is the reference's add / maximum / add of the
  same arrays; and so on through the three layers to the log-softmax.  At each boundary the buffer just written holds
  the reference's staged value of the program's arguments.
-/
import proofs.«135195_j40699110097665_1_alg».proof.Proof.HostStages
import proofs.«135195_j40699110097665_1_alg».proof.Proof.RefLayers
import proofs.«135195_j40699110097665_1_alg».proof.Proof.Dense0
import proofs.«135195_j40699110097665_1_alg».proof.Proof.Dense2
import proofs.«135195_j40699110097665_1_alg».proof.Proof.Dense4
import proofs.«135195_j40699110097665_1_alg».proof.Proof.Close1
import proofs.«135195_j40699110097665_1_alg».proof.Proof.Close3
import proofs.«135195_j40699110097665_1_alg».proof.Proof.Close5

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first layer -/

/-- After the first dense region: the node features times the first weight matrix. -/
theorem at2_v27 : W2 m ρ c (Proc.devRef .tc main_v27) = Cert.ReferenceIdeal.ReadP.val_main_v27 (F := Ideal) (m ((c : Thread nD τ).loc main_arg0)) (m ((c : Thread nD τ).loc main_arg2)) := by
  refine (W2_arr m ρ c 2).trans ((dense0_final (V1 m ρ) c).trans ?_)
  rw [show V1 m ρ c main_arg0 = (m ((c : Thread nD τ).loc main_arg0)) from keep1_arg0 m ρ c, show V1 m ρ c main_arg2 = (m ((c : Thread nD τ).loc main_arg2)) from keep1_arg2 m ρ c]
  exact (Cert.ReferenceIdeal.Layers.val27_dense (m ((c : Thread nD τ).loc main_arg0)) (m ((c : Thread nD τ).loc main_arg2))).symm

/-- After the first closing region: aggregation, bias, clamp at zero. -/
theorem at4_v42 : W4 m ρ c (Proc.devRef .tc main_v42) = Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((close1_final (V3 m ρ) c).trans ?_)
  rw [show V3 m ρ c main_v40 = _ from host1_v40 m ρ c (at2_v27 m ρ c), show V3 m ρ c main_v41 = _ from host1_v41 m ρ c]
  exact (Cert.ReferenceIdeal.Layers.val44_biasRelu (m ((c : Thread nD τ).loc main_arg0)) (m ((c : Thread nD τ).loc main_arg1)) (m ((c : Thread nD τ).loc main_arg2)) (m ((c : Thread nD τ).loc main_arg3)) _).symm

/-! ## The second layer -/

/-- After the second dense region: the first layer's output times the second weight matrix. -/
theorem at5_v43 : W5 m ρ c (Proc.devRef .tc main_v43) = Cert.ReferenceIdeal.ReadP.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((dense2_final (V4 m ρ) c).trans ?_)
  rw [show V4 m ρ c main_v42 = _ from at4_v42 m ρ c, show V4 m ρ c main_arg4 = (m ((c : Thread nD τ).loc main_arg4)) from keep4_arg4 m ρ c]
  exact (Cert.ReferenceIdeal.Layers.val45_dense (m ((c : Thread nD τ).loc main_arg0)) (m ((c : Thread nD τ).loc main_arg1)) (m ((c : Thread nD τ).loc main_arg2)) (m ((c : Thread nD τ).loc main_arg3)) (m ((c : Thread nD τ).loc main_arg4))).symm

/-- The first layer's output is still there when the second closing region reads it as the residual. -/
theorem at6_v42 : W6 m ρ c (Proc.devRef .tc main_v42) = Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) :=
  (keep6_v42 m ρ c).trans (at4_v42 m ρ c)

/-- After the second closing region: aggregation, bias, clamp at zero, residual. -/
theorem at7_v58 : W7 m ρ c (Proc.devRef .tc main_v58) = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 3).trans ((close3_final (V6 m ρ) c).trans ?_)
  rw [show V6 m ρ c main_v56 = _ from host3_v56 m ρ c (at5_v43 m ρ c), show V6 m ρ c main_v57 = _ from host3_v57 m ρ c,
    show V6 m ρ c main_v42 = _ from at6_v42 m ρ c]
  exact (Cert.ReferenceIdeal.Layers.val63_biasReluRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _).symm

/-! ## The third layer -/

/-- After the third dense region: the second layer's output times the classifier's weight matrix. -/
theorem at8_v59 : W8 m ρ c (Proc.devRef .tc main_v59) = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((dense4_final (V7 m ρ) c).trans ?_)
  rw [show V7 m ρ c main_v58 = _ from at7_v58 m ρ c, show V7 m ρ c main_arg6 = (m ((c : Thread nD τ).loc main_arg6)) from keep7_arg6 m ρ c]
  exact (Cert.ReferenceIdeal.Layers.val64_dense (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

/-- After the third closing region: aggregation and bias, the class scores. -/
theorem at10_v74 : W10 m ρ c (Proc.devRef .tc main_v74) = Cert.ReferenceIdeal.ReadP.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ((close5_final (V9 m ρ) c).trans ?_)
  rw [show V9 m ρ c main_v72 = _ from host5_v72 m ρ c (at8_v59 m ρ c), show V9 m ρ c main_v73 = _ from host5_v73 m ρ c]
  exact (Cert.ReferenceIdeal.Layers.val80_biasOnly (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _).symm

/-! ## The result -/

/-- The result array after the whole program: the log-softmax of the class scores — the reference's last staged value
    of the program's arguments. -/
theorem result_eq : W11 m ρ c (Proc.devRef .tc main_v75) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  host6_v75 m ρ c (at10_v74 m ρ c)

end Cert.KernelIdeal.Layers

end
-- ==== Proof.RefStages.lean ====
/-
  The reference program's run, with the fold of its operations left folded and cut into eleven stretches.
  The reference is one line of 115 host operations.  It is cut where the tiled program's segments are cut: the edge lists
  and edge weights; then, for each of the three layers, the matrix product (one operation), the aggregation along the
  edges (gather, scale, scatter-add), and the closing step (bias; clamp at zero; residual); last the log-softmax.
  Running the operations in order from some buffer contents rewrites those contents operation by operation, and running
  two lines one after the other is running their concatenation: so the contents after the whole program are the last
  stretch's, from the one before, and so on back to the launch memory.
-/
import proofs.«135195_j40699110097665_1_alg».proof.Proof.RefRun

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- Operations 1 … 33: the edge lists with their self-loops, the degrees, the edge weights. -/
abbrev ops1 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S850000 ![] bcast_S_S850000 : (⟨S_, .i32⟩ : BufTy).Contents (Elt F) → (⟨S850000, .i32⟩ : BufTy).Contents (Elt F)),
    binary main_v3 main_v12 main_v13 (cmpi .slt : (⟨S850000, .i32⟩ : BufTy).Contents (Elt F) → (⟨S850000, .i32⟩ : BufTy).Contents (Elt F) → (⟨S850000, .i1⟩ : BufTy).Contents (Elt F)),
    nullary main_c_1 (constantI S_ 32 50000#32),
    unary main_c_1 main_v14 (broadcastInDim S850000 ![] bcast_S_S850000 : (⟨S_, .i32⟩ : BufTy).Contents (Elt F) → (⟨S850000, .i32⟩ : BufTy).Contents (Elt F)),
    binary main_v3 main_v14 main_v15 (addi : (⟨S850000, .i32⟩ : BufTy).Contents (Elt F) → (⟨S850000, .i32⟩ : BufTy).Contents (Elt F) → (⟨S850000, .i32⟩ : BufTy).Contents (Elt F)),
    ternary main_v13 main_v15 main_v3 main_v16 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v16 main_v17 (broadcastInDim S850000x1 ![0] bcast_S850000_S850000x1_0 : (⟨S850000, .i32⟩ : BufTy).Contents (Elt F) → (⟨S850000x1, .i32⟩ : BufTy).Contents (Elt F)),
    binary main_v11 main_v17 main_v18 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_2 (constantI S_ 32 0#32),
    unary main_c_2 main_v19 (broadcastInDim S850000 ![] bcast_S_S850000 : (⟨S_, .i32⟩ : BufTy).Contents (Elt F) → (⟨S850000, .i32⟩ : BufTy).Contents (Elt F)),
    binary main_v6 main_v19 main_v20 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v21 (broadcastInDim S850000 ![] bcast_S_S850000 : (⟨S_, .i32⟩ : BufTy).Contents (Elt F) → (⟨S850000, .i32⟩ : BufTy).Contents (Elt F)),
    binary main_v6 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v11 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v18 main_v25 main_v26 (mulf : (⟨S850000, .f32⟩ : BufTy).Contents (Elt F) → (⟨S850000, .f32⟩ : BufTy).Contents (Elt F) → (⟨S850000, .f32⟩ : BufTy).Contents (Elt F)) ]

/-- Operations 34 … 34: the first matrix product. -/
abbrev ops2 : List (HloOp τ sig (Elt F)) :=
  [ binary main_arg0 main_arg2 main_v27 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 35 … 50: the first aggregation along the edges. -/
abbrev ops3 : List (HloOp τ sig (Elt F)) :=
  [ nullary main_c_4 (constantI S_ 32 0#32),
    unary main_c_4 main_v28 (broadcastInDim S850000 ![] bcast_S_S850000 : (⟨S_, .i32⟩ : BufTy).Contents (Elt F) → (⟨S850000, .i32⟩ : BufTy).Contents (Elt F)),
    binary main_v3 main_v28 main_v29 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v30 (broadcastInDim S850000 ![] bcast_S_S850000 : (⟨S_, .i32⟩ : BufTy).Contents (Elt F) → (⟨S850000, .i32⟩ : BufTy).Contents (Elt F)),
    binary main_v3 main_v30 main_v31 (addi : (⟨S850000, .i32⟩ : BufTy).Contents (Elt F) → (⟨S850000, .i32⟩ : BufTy).Contents (Elt F) → (⟨S850000, .i32⟩ : BufTy).Contents (Elt F)),
    ternary main_v29 main_v31 main_v3 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v32 main_v33 (broadcastInDim S850000x1 ![0] bcast_S850000_S850000x1_0 : (⟨S850000, .i32⟩ : BufTy).Contents (Elt F) → (⟨S850000x1, .i32⟩ : BufTy).Contents (Elt F)),
    binary main_v27 main_v33 main_v34 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v26 main_v35 (broadcastInDim S850000x1 ![0] bcast_S850000_S850000x1_0 : (⟨S850000, .f32⟩ : BufTy).Contents (Elt F) → (⟨S850000x1, .f32⟩ : BufTy).Contents (Elt F)),
    unary main_v35 main_v36 (broadcastInDim S850000x256 ![0, 1] bcast_S850000x1_S850000x256_0_1 : (⟨S850000x1, .f32⟩ : BufTy).Contents (Elt F) → (⟨S850000x256, .f32⟩ : BufTy).Contents (Elt F)),
    binary main_v34 main_v36 main_v37 (mulf : (⟨S850000x256, .f32⟩ : BufTy).Contents (Elt F) → (⟨S850000x256, .f32⟩ : BufTy).Contents (Elt F) → (⟨S850000x256, .f32⟩ : BufTy).Contents (Elt F)),
    nullary main_cst_6 (constant S_ .f32 0x00000000#32),
    unary main_cst_6 main_v38 (broadcastInDim S50000x256 ![] bcast_S_S50000x256 : (⟨S_, .f32⟩ : BufTy).Contents (Elt F) → (⟨S50000x256, .f32⟩ : BufTy).Contents (Elt F)),
    unary main_v6 main_v39 (broadcastInDim S850000x1 ![0] bcast_S850000_S850000x1_0 : (⟨S850000, .i32⟩ : BufTy).Contents (Elt F) → (⟨S850000x1, .i32⟩ : BufTy).Contents (Elt F)),
    ternary main_v38 main_v39 main_v37 main_v40 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- Operations 51 … 56: the first bias and clamp at zero. -/
abbrev ops4 : List (HloOp τ sig (Elt F)) :=
  [ unary main_arg3 main_v41 (broadcastInDim S1x256 ![1] bcast_S256_S1x256_1 : (⟨S256, .f32⟩ : BufTy).Contents (Elt F) → (⟨S1x256, .f32⟩ : BufTy).Contents (Elt F)),
    unary main_v41 main_v42 (broadcastInDim S50000x256 ![0, 1] bcast_S1x256_S50000x256_0_1 : (⟨S1x256, .f32⟩ : BufTy).Contents (Elt F) → (⟨S50000x256, .f32⟩ : BufTy).Contents (Elt F)),
    binary main_v40 main_v42 main_v43 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v43) (TRef.of (T := ⟨S50000x256, .f32⟩) main_call0_v0) (TRef.of (T := ⟨S50000x256, .f32⟩) main_v44) maximumf ]

/-- Operations 57 … 57: the second matrix product. -/
abbrev ops5 : List (HloOp τ sig (Elt F)) :=
  [ binary main_v44 main_arg4 main_v45 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 58 … 73: the second aggregation. -/
abbrev ops6 : List (HloOp τ sig (Elt F)) :=
  [ nullary main_c_7 (constantI S_ 32 0#32),
    unary main_c_7 main_v46 (broadcastInDim S850000 ![] bcast_S_S850000 : (⟨S_, .i32⟩ : BufTy).Contents (Elt F) → (⟨S850000, .i32⟩ : BufTy).Contents (Elt F)),
    binary main_v3 main_v46 main_v47 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v48 (broadcastInDim S850000 ![] bcast_S_S850000 : (⟨S_, .i32⟩ : BufTy).Contents (Elt F) → (⟨S850000, .i32⟩ : BufTy).Contents (Elt F)),
    binary main_v3 main_v48 main_v49 (addi : (⟨S850000, .i32⟩ : BufTy).Contents (Elt F) → (⟨S850000, .i32⟩ : BufTy).Contents (Elt F) → (⟨S850000, .i32⟩ : BufTy).Contents (Elt F)),
    ternary main_v47 main_v49 main_v3 main_v50 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v50 main_v51 (broadcastInDim S850000x1 ![0] bcast_S850000_S850000x1_0 : (⟨S850000, .i32⟩ : BufTy).Contents (Elt F) → (⟨S850000x1, .i32⟩ : BufTy).Contents (Elt F)),
    binary main_v45 main_v51 main_v52 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v26 main_v53 (broadcastInDim S850000x1 ![0] bcast_S850000_S850000x1_0 : (⟨S850000, .f32⟩ : BufTy).Contents (Elt F) → (⟨S850000x1, .f32⟩ : BufTy).Contents (Elt F)),
    unary main_v53 main_v54 (broadcastInDim S850000x256 ![0, 1] bcast_S850000x1_S850000x256_0_1 : (⟨S850000x1, .f32⟩ : BufTy).Contents (Elt F) → (⟨S850000x256, .f32⟩ : BufTy).Contents (Elt F)),
    binary main_v52 main_v54 main_v55 (mulf : (⟨S850000x256, .f32⟩ : BufTy).Contents (Elt F) → (⟨S850000x256, .f32⟩ : BufTy).Contents (Elt F) → (⟨S850000x256, .f32⟩ : BufTy).Contents (Elt F)),
    nullary main_cst_9 (constant S_ .f32 0x00000000#32),
    unary main_cst_9 main_v56 (broadcastInDim S50000x256 ![] bcast_S_S50000x256 : (⟨S_, .f32⟩ : BufTy).Contents (Elt F) → (⟨S50000x256, .f32⟩ : BufTy).Contents (Elt F)),
    unary main_v6 main_v57 (broadcastInDim S850000x1 ![0] bcast_S850000_S850000x1_0 : (⟨S850000, .i32⟩ : BufTy).Contents (Elt F) → (⟨S850000x1, .i32⟩ : BufTy).Contents (Elt F)),
    ternary main_v56 main_v57 main_v55 main_v58 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- Operations 74 … 80: the second bias, clamp at zero and residual. -/
abbrev ops7 : List (HloOp τ sig (Elt F)) :=
  [ unary main_arg5 main_v59 (broadcastInDim S1x256 ![1] bcast_S256_S1x256_1 : (⟨S256, .f32⟩ : BufTy).Contents (Elt F) → (⟨S1x256, .f32⟩ : BufTy).Contents (Elt F)),
    unary main_v59 main_v60 (broadcastInDim S50000x256 ![0, 1] bcast_S1x256_S50000x256_0_1 : (⟨S1x256, .f32⟩ : BufTy).Contents (Elt F) → (⟨S50000x256, .f32⟩ : BufTy).Contents (Elt F)),
    binary main_v58 main_v60 main_v61 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v61) (TRef.of (T := ⟨S50000x256, .f32⟩) main_call1_v0) (TRef.of (T := ⟨S50000x256, .f32⟩) main_v62) maximumf,
    binary main_v62 main_v44 main_v63 (addf : (⟨S50000x256, .f32⟩ : BufTy).Contents (Elt F) → (⟨S50000x256, .f32⟩ : BufTy).Contents (Elt F) → (⟨S50000x256, .f32⟩ : BufTy).Contents (Elt F)) ]

/-- Operations 81 … 81: the third matrix product. -/
abbrev ops8 : List (HloOp τ sig (Elt F)) :=
  [ binary main_v63 main_arg6 main_v64 ((fun l r => Host.dotGeneral dot_S50000x256_S256x7_S50000x7_1_0_0_1_n_n none l r) : (⟨S50000x256, .f32⟩ : BufTy).Contents (Elt F) → (⟨S256x7, .f32⟩ : BufTy).Contents (Elt F) → (⟨S50000x7, .f32⟩ : BufTy).Contents (Elt F)) ]

/-- Operations 82 … 97: the third aggregation. -/
abbrev ops9 : List (HloOp τ sig (Elt F)) :=
  [ nullary main_c_10 (constantI S_ 32 0#32),
    unary main_c_10 main_v65 (broadcastInDim S850000 ![] bcast_S_S850000 : (⟨S_, .i32⟩ : BufTy).Contents (Elt F) → (⟨S850000, .i32⟩ : BufTy).Contents (Elt F)),
    binary main_v3 main_v65 main_v66 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v67 (broadcastInDim S850000 ![] bcast_S_S850000 : (⟨S_, .i32⟩ : BufTy).Contents (Elt F) → (⟨S850000, .i32⟩ : BufTy).Contents (Elt F)),
    binary main_v3 main_v67 main_v68 (addi : (⟨S850000, .i32⟩ : BufTy).Contents (Elt F) → (⟨S850000, .i32⟩ : BufTy).Contents (Elt F) → (⟨S850000, .i32⟩ : BufTy).Contents (Elt F)),
    ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v69 main_v70 (broadcastInDim S850000x1 ![0] bcast_S850000_S850000x1_0 : (⟨S850000, .i32⟩ : BufTy).Contents (Elt F) → (⟨S850000x1, .i32⟩ : BufTy).Contents (Elt F)),
    binary main_v64 main_v70 main_v71 ((fun x i => Host.gather gather_S50000x7_S850000x1_S850000x7_1_0_n_n_0_1_17 x i) : (⟨S50000x7, .f32⟩ : BufTy).Contents (Elt F) → (⟨S850000x1, .i32⟩ : BufTy).Contents (Elt F) → (⟨S850000x7, .f32⟩ : BufTy).Contents (Elt F)),
    unary main_v26 main_v72 (broadcastInDim S850000x1 ![0] bcast_S850000_S850000x1_0 : (⟨S850000, .f32⟩ : BufTy).Contents (Elt F) → (⟨S850000x1, .f32⟩ : BufTy).Contents (Elt F)),
    unary main_v72 main_v73 (broadcastInDim S850000x7 ![0, 1] bcast_S850000x1_S850000x7_0_1 : (⟨S850000x1, .f32⟩ : BufTy).Contents (Elt F) → (⟨S850000x7, .f32⟩ : BufTy).Contents (Elt F)),
    binary main_v71 main_v73 main_v74 (mulf : (⟨S850000x7, .f32⟩ : BufTy).Contents (Elt F) → (⟨S850000x7, .f32⟩ : BufTy).Contents (Elt F) → (⟨S850000x7, .f32⟩ : BufTy).Contents (Elt F)),
    nullary main_cst_12 (constant S_ .f32 0x00000000#32),
    unary main_cst_12 main_v75 (broadcastInDim S50000x7 ![] bcast_S_S50000x7 : (⟨S_, .f32⟩ : BufTy).Contents (Elt F) → (⟨S50000x7, .f32⟩ : BufTy).Contents (Elt F)),
    unary main_v6 main_v76 (broadcastInDim S850000x1 ![0] bcast_S850000_S850000x1_0 : (⟨S850000, .i32⟩ : BufTy).Contents (Elt F) → (⟨S850000x1, .i32⟩ : BufTy).Contents (Elt F)),
    ternary main_v75 main_v76 main_v74 main_v77 ((fun x i u => Host.scatterAdd scatter_S50000x7_S850000x1_S850000x7_1_0_0_1 x i u) : (⟨S50000x7, .f32⟩ : BufTy).Contents (Elt F) → (⟨S850000x1, .i32⟩ : BufTy).Contents (Elt F) → (⟨S850000x7, .f32⟩ : BufTy).Contents (Elt F) → (⟨S50000x7, .f32⟩ : BufTy).Contents (Elt F)) ]

/-- Operations 98 … 100: the classifier's bias. -/
abbrev ops10 : List (HloOp τ sig (Elt F)) :=
  [ unary main_arg7 main_v78 (broadcastInDim S1x7 ![1] bcast_S7_S1x7_1 : (⟨S7, .f32⟩ : BufTy).Contents (Elt F) → (⟨S1x7, .f32⟩ : BufTy).Contents (Elt F)),
    unary main_v78 main_v79 (broadcastInDim S50000x7 ![0, 1] bcast_S1x7_S50000x7_0_1 : (⟨S1x7, .f32⟩ : BufTy).Contents (Elt F) → (⟨S50000x7, .f32⟩ : BufTy).Contents (Elt F)),
    binary main_v77 main_v79 main_v80 (addf : (⟨S50000x7, .f32⟩ : BufTy).Contents (Elt F) → (⟨S50000x7, .f32⟩ : BufTy).Contents (Elt F) → (⟨S50000x7, .f32⟩ : BufTy).Contents (Elt F)) ]

/-- Operations 101 … 115: the log-softmax over the classes. -/
abbrev ops11 : List (HloOp τ sig (Elt F)) :=
  [ TRef.nullary (TRef.of (T := ⟨S_, .f32⟩) main_call2_cst) (constant S_ .f32 0xFF800000#32),
    TRef.binary (TRef.of (T := ⟨S50000x7, .f32⟩) main_v80) (TRef.of (T := ⟨S_, .f32⟩) main_call2_cst) (TRef.of (T := ⟨S50000, .f32⟩) main_call2_v0) (fun x v => Host.reduce FloatOps.maximumf x v reducesTo_S50000x7_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x7, .f32⟩) main_call2_v4) (broadcastInDim S50000x7 ![0, 1] bcast_S50000x1_S50000x7_0_1),
    TRef.binary (TRef.of (T := ⟨S50000x7, .f32⟩) main_v80) (TRef.of (T := ⟨S50000x7, .f32⟩) main_call2_v4) (TRef.of (T := ⟨S50000x7, .f32⟩) main_call2_v5) subf,
    TRef.unary (TRef.of (T := ⟨S50000x7, .f32⟩) main_call2_v5) (TRef.of (T := ⟨S50000x7, .f32⟩) main_call2_v6) Host.exp,
    TRef.nullary (TRef.of (T := ⟨S_, .f32⟩) main_call2_cst_1) (constant S_ .f32 0x00000000#32),
    TRef.binary (TRef.of (T := ⟨S50000x7, .f32⟩) main_call2_v6) (TRef.of (T := ⟨S_, .f32⟩) main_call2_cst_1) (TRef.of (T := ⟨S50000, .f32⟩) main_call2_v7) (fun x v => Host.reduceAdd x v reducesTo_S50000x7_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x7, .f32⟩) main_call2_v10) (broadcastInDim S50000x7 ![0, 1] bcast_S50000x1_S50000x7_0_1),
    TRef.binary (TRef.of (T := ⟨S50000x7, .f32⟩) main_call2_v5) (TRef.of (T := ⟨S50000x7, .f32⟩) main_call2_v10) (TRef.of (T := ⟨S50000x7, .f32⟩) main_v81) subf ]

set_option maxRecDepth 8192 in
/-- The program's operations are the eleven stretches in order. -/
theorem ops_split : (ValueP.ops : List (HloOp τ sig (Elt F))) = ops1 ++ (ops2 ++ (ops3 ++ (ops4 ++ (ops5 ++ (ops6 ++ (ops7 ++ (ops8 ++ (ops9 ++ (ops10 ++ (ops11)))))))))) := rfl

/-- Running two lines one after the other from contents `V` is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (m : (ℓ : Loc nD τ sig) → Buf (Elt F) ℓ) (c : Dev nD)

/-- The buffer contents after stretch 1. -/
def B1 : Valuation τ sig (Elt F) := after ops1 (launchContents m c)
/-- The buffer contents after stretch 2. -/
def B2 : Valuation τ sig (Elt F) := after ops2 (B1 m c)
/-- The buffer contents after stretch 3. -/
def B3 : Valuation τ sig (Elt F) := after ops3 (B2 m c)
/-- The buffer contents after stretch 4. -/
def B4 : Valuation τ sig (Elt F) := after ops4 (B3 m c)
/-- The buffer contents after stretch 5. -/
def B5 : Valuation τ sig (Elt F) := after ops5 (B4 m c)
/-- The buffer contents after stretch 6. -/
def B6 : Valuation τ sig (Elt F) := after ops6 (B5 m c)
/-- The buffer contents after stretch 7. -/
def B7 : Valuation τ sig (Elt F) := after ops7 (B6 m c)
/-- The buffer contents after stretch 8. -/
def B8 : Valuation τ sig (Elt F) := after ops8 (B7 m c)
/-- The buffer contents after stretch 9. -/
def B9 : Valuation τ sig (Elt F) := after ops9 (B8 m c)
/-- The buffer contents after stretch 10. -/
def B10 : Valuation τ sig (Elt F) := after ops10 (B9 m c)
/-- The buffer contents after stretch 11. -/
def B11 : Valuation τ sig (Elt F) := after ops11 (B10 m c)

/-- The contents after the whole program are the eleven stretches' fold. -/
theorem fold_eq : after ValueP.ops (launchContents m c) = B11 m c := by
  rw [ops_split, after_append, after_append, after_append, after_append, after_append, after_append, after_append, after_append, after_append, after_append]; rfl

/-- Every weakly fair execution of the reference terminates, nothing faulting, with every buffer at the fold of the
    eleven stretches from the launch memory. -/
theorem run_fold (ρ : Dev nD → PrngReg) :
    θ_run defs (onTc (τ := τ) (main (F := F))) ⟨m, fun _ => 0, ρ⟩ fun r => ∀ (c : Dev nD) (b : Ref sig .tc),
      r.2.mem ((c.tc : Thread nD τ).loc b) = B11 m c (Proc.devRef .tc b) :=
  (θ_run defs _ _).mono (fun _ h c b => (h c b).trans (congrFun (fold_eq m c) _))
    (run_seq ValueP.scopedRefs_eq ValueP.scopedSems_eq defs main (fun _ => ValueP.ops) ValueP.main_eq (fun _ => ValueP.ops_sub) m ρ)

end Cert.ReferenceIdeal.Fold

end
-- ==== Proof.RefArgs.lean ====
/-
  What the reference's stretches leave alone.  The argument arrays are written by none of the 115 operations: each of the
  eleven stretches leaves them as it found them, so after the whole program they hold what the launch memory held.  The
  edge lists and edge weights, computed in the first stretch, are written by no later one, and are read again by each
  layer's aggregation; the first layer's output is written by no later stretch either, and is read again as the second
  layer's residual.
-/
import proofs.«135195_j40699110097665_1_alg».proof.Proof.RefStages

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-! ## the node features (`main_arg0`) -/

theorem B1_arg0 : B1 m c (Proc.devRef .tc main_arg0) = m ((c.tc : Thread nD τ).loc main_arg0) := by
  unfold B1
  after_results
theorem B2_arg0 : B2 m c (Proc.devRef .tc main_arg0) = m ((c.tc : Thread nD τ).loc main_arg0) := by
  unfold B2
  after_results
  exact B1_arg0 m c
theorem B3_arg0 : B3 m c (Proc.devRef .tc main_arg0) = m ((c.tc : Thread nD τ).loc main_arg0) := by
  unfold B3
  after_results
  exact B2_arg0 m c
theorem B4_arg0 : B4 m c (Proc.devRef .tc main_arg0) = m ((c.tc : Thread nD τ).loc main_arg0) := by
  unfold B4
  after_results
  exact B3_arg0 m c
theorem B5_arg0 : B5 m c (Proc.devRef .tc main_arg0) = m ((c.tc : Thread nD τ).loc main_arg0) := by
  unfold B5
  after_results
  exact B4_arg0 m c
theorem B6_arg0 : B6 m c (Proc.devRef .tc main_arg0) = m ((c.tc : Thread nD τ).loc main_arg0) := by
  unfold B6
  after_results
  exact B5_arg0 m c
theorem B7_arg0 : B7 m c (Proc.devRef .tc main_arg0) = m ((c.tc : Thread nD τ).loc main_arg0) := by
  unfold B7
  after_results
  exact B6_arg0 m c
theorem B8_arg0 : B8 m c (Proc.devRef .tc main_arg0) = m ((c.tc : Thread nD τ).loc main_arg0) := by
  unfold B8
  after_results
  exact B7_arg0 m c
theorem B9_arg0 : B9 m c (Proc.devRef .tc main_arg0) = m ((c.tc : Thread nD τ).loc main_arg0) := by
  unfold B9
  after_results
  exact B8_arg0 m c
theorem B10_arg0 : B10 m c (Proc.devRef .tc main_arg0) = m ((c.tc : Thread nD τ).loc main_arg0) := by
  unfold B10
  after_results
  exact B9_arg0 m c
theorem B11_arg0 : B11 m c (Proc.devRef .tc main_arg0) = m ((c.tc : Thread nD τ).loc main_arg0) := by
  unfold B11
  after_results
  exact B10_arg0 m c

/-! ## the edge index (`main_arg1`) -/

theorem B1_arg1 : B1 m c (Proc.devRef .tc main_arg1) = m ((c.tc : Thread nD τ).loc main_arg1) := by
  unfold B1
  after_results
theorem B2_arg1 : B2 m c (Proc.devRef .tc main_arg1) = m ((c.tc : Thread nD τ).loc main_arg1) := by
  unfold B2
  after_results
  exact B1_arg1 m c
theorem B3_arg1 : B3 m c (Proc.devRef .tc main_arg1) = m ((c.tc : Thread nD τ).loc main_arg1) := by
  unfold B3
  after_results
  exact B2_arg1 m c
theorem B4_arg1 : B4 m c (Proc.devRef .tc main_arg1) = m ((c.tc : Thread nD τ).loc main_arg1) := by
  unfold B4
  after_results
  exact B3_arg1 m c
theorem B5_arg1 : B5 m c (Proc.devRef .tc main_arg1) = m ((c.tc : Thread nD τ).loc main_arg1) := by
  unfold B5
  after_results
  exact B4_arg1 m c
theorem B6_arg1 : B6 m c (Proc.devRef .tc main_arg1) = m ((c.tc : Thread nD τ).loc main_arg1) := by
  unfold B6
  after_results
  exact B5_arg1 m c
theorem B7_arg1 : B7 m c (Proc.devRef .tc main_arg1) = m ((c.tc : Thread nD τ).loc main_arg1) := by
  unfold B7
  after_results
  exact B6_arg1 m c
theorem B8_arg1 : B8 m c (Proc.devRef .tc main_arg1) = m ((c.tc : Thread nD τ).loc main_arg1) := by
  unfold B8
  after_results
  exact B7_arg1 m c
theorem B9_arg1 : B9 m c (Proc.devRef .tc main_arg1) = m ((c.tc : Thread nD τ).loc main_arg1) := by
  unfold B9
  after_results
  exact B8_arg1 m c
theorem B10_arg1 : B10 m c (Proc.devRef .tc main_arg1) = m ((c.tc : Thread nD τ).loc main_arg1) := by
  unfold B10
  after_results
  exact B9_arg1 m c
theorem B11_arg1 : B11 m c (Proc.devRef .tc main_arg1) = m ((c.tc : Thread nD τ).loc main_arg1) := by
  unfold B11
  after_results
  exact B10_arg1 m c

/-! ## the first weight matrix (`main_arg2`) -/

theorem B1_arg2 : B1 m c (Proc.devRef .tc main_arg2) = m ((c.tc : Thread nD τ).loc main_arg2) := by
  unfold B1
  after_results
theorem B2_arg2 : B2 m c (Proc.devRef .tc main_arg2) = m ((c.tc : Thread nD τ).loc main_arg2) := by
  unfold B2
  after_results
  exact B1_arg2 m c
theorem B3_arg2 : B3 m c (Proc.devRef .tc main_arg2) = m ((c.tc : Thread nD τ).loc main_arg2) := by
  unfold B3
  after_results
  exact B2_arg2 m c
theorem B4_arg2 : B4 m c (Proc.devRef .tc main_arg2) = m ((c.tc : Thread nD τ).loc main_arg2) := by
  unfold B4
  after_results
  exact B3_arg2 m c
theorem B5_arg2 : B5 m c (Proc.devRef .tc main_arg2) = m ((c.tc : Thread nD τ).loc main_arg2) := by
  unfold B5
  after_results
  exact B4_arg2 m c
theorem B6_arg2 : B6 m c (Proc.devRef .tc main_arg2) = m ((c.tc : Thread nD τ).loc main_arg2) := by
  unfold B6
  after_results
  exact B5_arg2 m c
theorem B7_arg2 : B7 m c (Proc.devRef .tc main_arg2) = m ((c.tc : Thread nD τ).loc main_arg2) := by
  unfold B7
  after_results
  exact B6_arg2 m c
theorem B8_arg2 : B8 m c (Proc.devRef .tc main_arg2) = m ((c.tc : Thread nD τ).loc main_arg2) := by
  unfold B8
  after_results
  exact B7_arg2 m c
theorem B9_arg2 : B9 m c (Proc.devRef .tc main_arg2) = m ((c.tc : Thread nD τ).loc main_arg2) := by
  unfold B9
  after_results
  exact B8_arg2 m c
theorem B10_arg2 : B10 m c (Proc.devRef .tc main_arg2) = m ((c.tc : Thread nD τ).loc main_arg2) := by
  unfold B10
  after_results
  exact B9_arg2 m c
theorem B11_arg2 : B11 m c (Proc.devRef .tc main_arg2) = m ((c.tc : Thread nD τ).loc main_arg2) := by
  unfold B11
  after_results
  exact B10_arg2 m c

/-! ## the first bias (`main_arg3`) -/

theorem B1_arg3 : B1 m c (Proc.devRef .tc main_arg3) = m ((c.tc : Thread nD τ).loc main_arg3) := by
  unfold B1
  after_results
theorem B2_arg3 : B2 m c (Proc.devRef .tc main_arg3) = m ((c.tc : Thread nD τ).loc main_arg3) := by
  unfold B2
  after_results
  exact B1_arg3 m c
theorem B3_arg3 : B3 m c (Proc.devRef .tc main_arg3) = m ((c.tc : Thread nD τ).loc main_arg3) := by
  unfold B3
  after_results
  exact B2_arg3 m c
theorem B4_arg3 : B4 m c (Proc.devRef .tc main_arg3) = m ((c.tc : Thread nD τ).loc main_arg3) := by
  unfold B4
  after_results
  exact B3_arg3 m c
theorem B5_arg3 : B5 m c (Proc.devRef .tc main_arg3) = m ((c.tc : Thread nD τ).loc main_arg3) := by
  unfold B5
  after_results
  exact B4_arg3 m c
theorem B6_arg3 : B6 m c (Proc.devRef .tc main_arg3) = m ((c.tc : Thread nD τ).loc main_arg3) := by
  unfold B6
  after_results
  exact B5_arg3 m c
theorem B7_arg3 : B7 m c (Proc.devRef .tc main_arg3) = m ((c.tc : Thread nD τ).loc main_arg3) := by
  unfold B7
  after_results
  exact B6_arg3 m c
theorem B8_arg3 : B8 m c (Proc.devRef .tc main_arg3) = m ((c.tc : Thread nD τ).loc main_arg3) := by
  unfold B8
  after_results
  exact B7_arg3 m c
theorem B9_arg3 : B9 m c (Proc.devRef .tc main_arg3) = m ((c.tc : Thread nD τ).loc main_arg3) := by
  unfold B9
  after_results
  exact B8_arg3 m c
theorem B10_arg3 : B10 m c (Proc.devRef .tc main_arg3) = m ((c.tc : Thread nD τ).loc main_arg3) := by
  unfold B10
  after_results
  exact B9_arg3 m c
theorem B11_arg3 : B11 m c (Proc.devRef .tc main_arg3) = m ((c.tc : Thread nD τ).loc main_arg3) := by
  unfold B11
  after_results
  exact B10_arg3 m c

/-! ## the second weight matrix (`main_arg4`) -/

theorem B1_arg4 : B1 m c (Proc.devRef .tc main_arg4) = m ((c.tc : Thread nD τ).loc main_arg4) := by
  unfold B1
  after_results
theorem B2_arg4 : B2 m c (Proc.devRef .tc main_arg4) = m ((c.tc : Thread nD τ).loc main_arg4) := by
  unfold B2
  after_results
  exact B1_arg4 m c
theorem B3_arg4 : B3 m c (Proc.devRef .tc main_arg4) = m ((c.tc : Thread nD τ).loc main_arg4) := by
  unfold B3
  after_results
  exact B2_arg4 m c
theorem B4_arg4 : B4 m c (Proc.devRef .tc main_arg4) = m ((c.tc : Thread nD τ).loc main_arg4) := by
  unfold B4
  after_results
  exact B3_arg4 m c
theorem B5_arg4 : B5 m c (Proc.devRef .tc main_arg4) = m ((c.tc : Thread nD τ).loc main_arg4) := by
  unfold B5
  after_results
  exact B4_arg4 m c
theorem B6_arg4 : B6 m c (Proc.devRef .tc main_arg4) = m ((c.tc : Thread nD τ).loc main_arg4) := by
  unfold B6
  after_results
  exact B5_arg4 m c
theorem B7_arg4 : B7 m c (Proc.devRef .tc main_arg4) = m ((c.tc : Thread nD τ).loc main_arg4) := by
  unfold B7
  after_results
  exact B6_arg4 m c
theorem B8_arg4 : B8 m c (Proc.devRef .tc main_arg4) = m ((c.tc : Thread nD τ).loc main_arg4) := by
  unfold B8
  after_results
  exact B7_arg4 m c
theorem B9_arg4 : B9 m c (Proc.devRef .tc main_arg4) = m ((c.tc : Thread nD τ).loc main_arg4) := by
  unfold B9
  after_results
  exact B8_arg4 m c
theorem B10_arg4 : B10 m c (Proc.devRef .tc main_arg4) = m ((c.tc : Thread nD τ).loc main_arg4) := by
  unfold B10
  after_results
  exact B9_arg4 m c
theorem B11_arg4 : B11 m c (Proc.devRef .tc main_arg4) = m ((c.tc : Thread nD τ).loc main_arg4) := by
  unfold B11
  after_results
  exact B10_arg4 m c

/-! ## the second bias (`main_arg5`) -/

theorem B1_arg5 : B1 m c (Proc.devRef .tc main_arg5) = m ((c.tc : Thread nD τ).loc main_arg5) := by
  unfold B1
  after_results
theorem B2_arg5 : B2 m c (Proc.devRef .tc main_arg5) = m ((c.tc : Thread nD τ).loc main_arg5) := by
  unfold B2
  after_results
  exact B1_arg5 m c
theorem B3_arg5 : B3 m c (Proc.devRef .tc main_arg5) = m ((c.tc : Thread nD τ).loc main_arg5) := by
  unfold B3
  after_results
  exact B2_arg5 m c
theorem B4_arg5 : B4 m c (Proc.devRef .tc main_arg5) = m ((c.tc : Thread nD τ).loc main_arg5) := by
  unfold B4
  after_results
  exact B3_arg5 m c
theorem B5_arg5 : B5 m c (Proc.devRef .tc main_arg5) = m ((c.tc : Thread nD τ).loc main_arg5) := by
  unfold B5
  after_results
  exact B4_arg5 m c
theorem B6_arg5 : B6 m c (Proc.devRef .tc main_arg5) = m ((c.tc : Thread nD τ).loc main_arg5) := by
  unfold B6
  after_results
  exact B5_arg5 m c
theorem B7_arg5 : B7 m c (Proc.devRef .tc main_arg5) = m ((c.tc : Thread nD τ).loc main_arg5) := by
  unfold B7
  after_results
  exact B6_arg5 m c
theorem B8_arg5 : B8 m c (Proc.devRef .tc main_arg5) = m ((c.tc : Thread nD τ).loc main_arg5) := by
  unfold B8
  after_results
  exact B7_arg5 m c
theorem B9_arg5 : B9 m c (Proc.devRef .tc main_arg5) = m ((c.tc : Thread nD τ).loc main_arg5) := by
  unfold B9
  after_results
  exact B8_arg5 m c
theorem B10_arg5 : B10 m c (Proc.devRef .tc main_arg5) = m ((c.tc : Thread nD τ).loc main_arg5) := by
  unfold B10
  after_results
  exact B9_arg5 m c
theorem B11_arg5 : B11 m c (Proc.devRef .tc main_arg5) = m ((c.tc : Thread nD τ).loc main_arg5) := by
  unfold B11
  after_results
  exact B10_arg5 m c

/-! ## the classifier's weight matrix (`main_arg6`) -/

theorem B1_arg6 : B1 m c (Proc.devRef .tc main_arg6) = m ((c.tc : Thread nD τ).loc main_arg6) := by
  unfold B1
  after_results
theorem B2_arg6 : B2 m c (Proc.devRef .tc main_arg6) = m ((c.tc : Thread nD τ).loc main_arg6) := by
  unfold B2
  after_results
  exact B1_arg6 m c
theorem B3_arg6 : B3 m c (Proc.devRef .tc main_arg6) = m ((c.tc : Thread nD τ).loc main_arg6) := by
  unfold B3
  after_results
  exact B2_arg6 m c
theorem B4_arg6 : B4 m c (Proc.devRef .tc main_arg6) = m ((c.tc : Thread nD τ).loc main_arg6) := by
  unfold B4
  after_results
  exact B3_arg6 m c
theorem B5_arg6 : B5 m c (Proc.devRef .tc main_arg6) = m ((c.tc : Thread nD τ).loc main_arg6) := by
  unfold B5
  after_results
  exact B4_arg6 m c
theorem B6_arg6 : B6 m c (Proc.devRef .tc main_arg6) = m ((c.tc : Thread nD τ).loc main_arg6) := by
  unfold B6
  after_results
  exact B5_arg6 m c
theorem B7_arg6 : B7 m c (Proc.devRef .tc main_arg6) = m ((c.tc : Thread nD τ).loc main_arg6) := by
  unfold B7
  after_results
  exact B6_arg6 m c
theorem B8_arg6 : B8 m c (Proc.devRef .tc main_arg6) = m ((c.tc : Thread nD τ).loc main_arg6) := by
  unfold B8
  after_results
  exact B7_arg6 m c
theorem B9_arg6 : B9 m c (Proc.devRef .tc main_arg6) = m ((c.tc : Thread nD τ).loc main_arg6) := by
  unfold B9
  after_results
  exact B8_arg6 m c
theorem B10_arg6 : B10 m c (Proc.devRef .tc main_arg6) = m ((c.tc : Thread nD τ).loc main_arg6) := by
  unfold B10
  after_results
  exact B9_arg6 m c
theorem B11_arg6 : B11 m c (Proc.devRef .tc main_arg6) = m ((c.tc : Thread nD τ).loc main_arg6) := by
  unfold B11
  after_results
  exact B10_arg6 m c

/-! ## the classifier's bias (`main_arg7`) -/

theorem B1_arg7 : B1 m c (Proc.devRef .tc main_arg7) = m ((c.tc : Thread nD τ).loc main_arg7) := by
  unfold B1
  after_results
theorem B2_arg7 : B2 m c (Proc.devRef .tc main_arg7) = m ((c.tc : Thread nD τ).loc main_arg7) := by
  unfold B2
  after_results
  exact B1_arg7 m c
theorem B3_arg7 : B3 m c (Proc.devRef .tc main_arg7) = m ((c.tc : Thread nD τ).loc main_arg7) := by
  unfold B3
  after_results
  exact B2_arg7 m c
theorem B4_arg7 : B4 m c (Proc.devRef .tc main_arg7) = m ((c.tc : Thread nD τ).loc main_arg7) := by
  unfold B4
  after_results
  exact B3_arg7 m c
theorem B5_arg7 : B5 m c (Proc.devRef .tc main_arg7) = m ((c.tc : Thread nD τ).loc main_arg7) := by
  unfold B5
  after_results
  exact B4_arg7 m c
theorem B6_arg7 : B6 m c (Proc.devRef .tc main_arg7) = m ((c.tc : Thread nD τ).loc main_arg7) := by
  unfold B6
  after_results
  exact B5_arg7 m c
theorem B7_arg7 : B7 m c (Proc.devRef .tc main_arg7) = m ((c.tc : Thread nD τ).loc main_arg7) := by
  unfold B7
  after_results
  exact B6_arg7 m c
theorem B8_arg7 : B8 m c (Proc.devRef .tc main_arg7) = m ((c.tc : Thread nD τ).loc main_arg7) := by
  unfold B8
  after_results
  exact B7_arg7 m c
theorem B9_arg7 : B9 m c (Proc.devRef .tc main_arg7) = m ((c.tc : Thread nD τ).loc main_arg7) := by
  unfold B9
  after_results
  exact B8_arg7 m c
theorem B10_arg7 : B10 m c (Proc.devRef .tc main_arg7) = m ((c.tc : Thread nD τ).loc main_arg7) := by
  unfold B10
  after_results
  exact B9_arg7 m c
theorem B11_arg7 : B11 m c (Proc.devRef .tc main_arg7) = m ((c.tc : Thread nD τ).loc main_arg7) := by
  unfold B11
  after_results
  exact B10_arg7 m c

/-! ## The edge lists, the edge weights, the first layer's output: written once, read again later -/

theorem B2_keep_v3 : B2 m c (Proc.devRef .tc main_v3) = B1 m c (Proc.devRef .tc main_v3) := by
  unfold B2
  after_results
theorem B3_keep_v3 : B3 m c (Proc.devRef .tc main_v3) = B2 m c (Proc.devRef .tc main_v3) := by
  unfold B3
  after_results
theorem B4_keep_v3 : B4 m c (Proc.devRef .tc main_v3) = B3 m c (Proc.devRef .tc main_v3) := by
  unfold B4
  after_results
theorem B5_keep_v3 : B5 m c (Proc.devRef .tc main_v3) = B4 m c (Proc.devRef .tc main_v3) := by
  unfold B5
  after_results
theorem B6_keep_v3 : B6 m c (Proc.devRef .tc main_v3) = B5 m c (Proc.devRef .tc main_v3) := by
  unfold B6
  after_results
theorem B7_keep_v3 : B7 m c (Proc.devRef .tc main_v3) = B6 m c (Proc.devRef .tc main_v3) := by
  unfold B7
  after_results
theorem B8_keep_v3 : B8 m c (Proc.devRef .tc main_v3) = B7 m c (Proc.devRef .tc main_v3) := by
  unfold B8
  after_results
theorem B2_keep_v6 : B2 m c (Proc.devRef .tc main_v6) = B1 m c (Proc.devRef .tc main_v6) := by
  unfold B2
  after_results
theorem B3_keep_v6 : B3 m c (Proc.devRef .tc main_v6) = B2 m c (Proc.devRef .tc main_v6) := by
  unfold B3
  after_results
theorem B4_keep_v6 : B4 m c (Proc.devRef .tc main_v6) = B3 m c (Proc.devRef .tc main_v6) := by
  unfold B4
  after_results
theorem B5_keep_v6 : B5 m c (Proc.devRef .tc main_v6) = B4 m c (Proc.devRef .tc main_v6) := by
  unfold B5
  after_results
theorem B6_keep_v6 : B6 m c (Proc.devRef .tc main_v6) = B5 m c (Proc.devRef .tc main_v6) := by
  unfold B6
  after_results
theorem B7_keep_v6 : B7 m c (Proc.devRef .tc main_v6) = B6 m c (Proc.devRef .tc main_v6) := by
  unfold B7
  after_results
theorem B8_keep_v6 : B8 m c (Proc.devRef .tc main_v6) = B7 m c (Proc.devRef .tc main_v6) := by
  unfold B8
  after_results
theorem B2_keep_v26 : B2 m c (Proc.devRef .tc main_v26) = B1 m c (Proc.devRef .tc main_v26) := by
  unfold B2
  after_results
theorem B3_keep_v26 : B3 m c (Proc.devRef .tc main_v26) = B2 m c (Proc.devRef .tc main_v26) := by
  unfold B3
  after_results
theorem B4_keep_v26 : B4 m c (Proc.devRef .tc main_v26) = B3 m c (Proc.devRef .tc main_v26) := by
  unfold B4
  after_results
theorem B5_keep_v26 : B5 m c (Proc.devRef .tc main_v26) = B4 m c (Proc.devRef .tc main_v26) := by
  unfold B5
  after_results
theorem B6_keep_v26 : B6 m c (Proc.devRef .tc main_v26) = B5 m c (Proc.devRef .tc main_v26) := by
  unfold B6
  after_results
theorem B7_keep_v26 : B7 m c (Proc.devRef .tc main_v26) = B6 m c (Proc.devRef .tc main_v26) := by
  unfold B7
  after_results
theorem B8_keep_v26 : B8 m c (Proc.devRef .tc main_v26) = B7 m c (Proc.devRef .tc main_v26) := by
  unfold B8
  after_results
theorem B5_keep_v44 : B5 m c (Proc.devRef .tc main_v44) = B4 m c (Proc.devRef .tc main_v44) := by
  unfold B5
  after_results
theorem B6_keep_v44 : B6 m c (Proc.devRef .tc main_v44) = B5 m c (Proc.devRef .tc main_v44) := by
  unfold B6
  after_results

end Cert.ReferenceIdeal.Fold

end
-- ==== Proof.RefFoldA.lean ====
/-
  The reference's first stretch leaves its staged values: the edge lists with their self-loops and the edge weights of the
  symmetric normalization — each operation's value is by definition its function of the values it reads, so the fold of
  the stretch read at a buffer is that buffer's staged value, the same term.
-/
import proofs.«135195_j40699110097665_1_alg».proof.Proof.RefStages
import proofs.«135195_j40699110097665_1_alg».proof.Proof.RefRead

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

set_option maxHeartbeats 8000000 in
/-- The sources of the edges, self-loops appended. -/
theorem B1_v3 : B1 m c (Proc.devRef .tc main_v3) = ReadP.val_main_v3 (F := Ideal) (m ((c.tc : Thread nD τ).loc main_arg1)) := by
  unfold B1
  after_results <;> rfl

set_option maxHeartbeats 8000000 in
/-- The targets of the edges, self-loops appended. -/
theorem B1_v6 : B1 m c (Proc.devRef .tc main_v6) = ReadP.val_main_v6 (F := Ideal) (m ((c.tc : Thread nD τ).loc main_arg1)) := by
  unfold B1
  after_results <;> rfl

set_option maxHeartbeats 8000000 in
/-- The edge weights. -/
theorem B1_v26 : B1 m c (Proc.devRef .tc main_v26) = ReadP.val_main_v26 (F := Ideal) (m ((c.tc : Thread nD τ).loc main_arg1)) := by
  unfold B1
  after_results <;> rfl

end Cert.ReferenceIdeal.Fold

end
-- ==== Proof.RefFoldB.lean ====
/-
  The reference's three aggregations (gather the rows along the edges' sources, scale by the edge weights, add up along
  the edges' targets), each given the matrix product before it and the edge lists and weights: each leaves its staged value.
-/
import proofs.«135195_j40699110097665_1_alg».proof.Proof.RefStages
import proofs.«135195_j40699110097665_1_alg».proof.Proof.RefRead

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

set_option maxHeartbeats 8000000 in
/-- The first aggregation. -/
theorem B3_v40_of (hv27 : B2 m c (Proc.devRef .tc main_v27) = ReadP.val_main_v27 (F := Ideal) (m ((c.tc : Thread nD τ).loc main_arg0)) (m ((c.tc : Thread nD τ).loc main_arg2)))
    (hv3 : B2 m c (Proc.devRef .tc main_v3) = ReadP.val_main_v3 (F := Ideal) (m ((c.tc : Thread nD τ).loc main_arg1))) (hv6 : B2 m c (Proc.devRef .tc main_v6) = ReadP.val_main_v6 (F := Ideal) (m ((c.tc : Thread nD τ).loc main_arg1)))
    (hv26 : B2 m c (Proc.devRef .tc main_v26) = ReadP.val_main_v26 (F := Ideal) (m ((c.tc : Thread nD τ).loc main_arg1))) :
    B3 m c (Proc.devRef .tc main_v40) = ReadP.val_main_v40 (F := Ideal) (m ((c.tc : Thread nD τ).loc main_arg0)) (m ((c.tc : Thread nD τ).loc main_arg1)) (m ((c.tc : Thread nD τ).loc main_arg2)) := by
  unfold B3
  after_results
  rw [hv27, hv3, hv6, hv26]
  rfl

set_option maxHeartbeats 8000000 in
/-- The second aggregation. -/
theorem B6_v58_of (hv45 : B5 m c (Proc.devRef .tc main_v45) = ReadP.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (hv3 : B5 m c (Proc.devRef .tc main_v3) = ReadP.val_main_v3 (F := Ideal) (m ((c.tc : Thread nD τ).loc main_arg1))) (hv6 : B5 m c (Proc.devRef .tc main_v6) = ReadP.val_main_v6 (F := Ideal) (m ((c.tc : Thread nD τ).loc main_arg1)))
    (hv26 : B5 m c (Proc.devRef .tc main_v26) = ReadP.val_main_v26 (F := Ideal) (m ((c.tc : Thread nD τ).loc main_arg1))) :
    B6 m c (Proc.devRef .tc main_v58) = ReadP.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold B6
  after_results
  rw [hv45, hv3, hv6, hv26]
  rfl

set_option maxHeartbeats 8000000 in
/-- The third aggregation. -/
theorem B9_v77_of (hv64 : B8 m c (Proc.devRef .tc main_v64) = ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (hv3 : B8 m c (Proc.devRef .tc main_v3) = ReadP.val_main_v3 (F := Ideal) (m ((c.tc : Thread nD τ).loc main_arg1))) (hv6 : B8 m c (Proc.devRef .tc main_v6) = ReadP.val_main_v6 (F := Ideal) (m ((c.tc : Thread nD τ).loc main_arg1)))
    (hv26 : B8 m c (Proc.devRef .tc main_v26) = ReadP.val_main_v26 (F := Ideal) (m ((c.tc : Thread nD τ).loc main_arg1))) :
    B9 m c (Proc.devRef .tc main_v77) = ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold B9
  after_results
  rw [hv64, hv3, hv6, hv26]
  rfl

end Cert.ReferenceIdeal.Fold

end
-- ==== Proof.RefCasts.lean ====
/-
  Moving a value to and from a buffer's own type is the identity.  An outlined function (the two clamps at zero, the
  log-softmax) reads and writes its buffers through typed references: a value of a tensor type is moved to the type of
  the buffer that holds it, and back, along the equation "this buffer's type is that tensor type" — which holds by
  computation.  So each move is the identity; it is shown here once per buffer, for an arbitrary value, so that the
  value's own arithmetic is never looked into.
-/
import proofs.«135195_j40699110097665_1_alg».proof.Proof.RefStages
import Idealize.ShloMosaic.PureOps.Ideal

noncomputable section

namespace Cert.ReferenceIdeal.Fold

open Cert.ReferenceIdeal Cert.ReferenceIdeal.Gen Idealize.ShloMosaic Idealize.ShloMosaic.TcCoe Idealize.SL.Sem Idealize.ShloMosaic.StableHlo

theorem toBuf_call0_cst (W : (⟨S_, .f32⟩ : BufTy).Contents (Elt Ideal)) :
    (TRef.of (sig := sig) (T := ⟨S_, .f32⟩) main_call0_cst).toBuf W = W := rfl
theorem ofBuf_call0_cst (W : (⟨S_, .f32⟩ : BufTy).Contents (Elt Ideal)) :
    (TRef.of (sig := sig) (T := ⟨S_, .f32⟩) main_call0_cst).ofBuf W = W := rfl
theorem toBuf_call0_v0 (W : (⟨S50000x256, .f32⟩ : BufTy).Contents (Elt Ideal)) :
    (TRef.of (sig := sig) (T := ⟨S50000x256, .f32⟩) main_call0_v0).toBuf W = W := rfl
theorem ofBuf_call0_v0 (W : (⟨S50000x256, .f32⟩ : BufTy).Contents (Elt Ideal)) :
    (TRef.of (sig := sig) (T := ⟨S50000x256, .f32⟩) main_call0_v0).ofBuf W = W := rfl
theorem toBuf_v43 (W : (⟨S50000x256, .f32⟩ : BufTy).Contents (Elt Ideal)) :
    (TRef.of (sig := sig) (T := ⟨S50000x256, .f32⟩) main_v43).toBuf W = W := rfl
theorem ofBuf_v43 (W : (⟨S50000x256, .f32⟩ : BufTy).Contents (Elt Ideal)) :
    (TRef.of (sig := sig) (T := ⟨S50000x256, .f32⟩) main_v43).ofBuf W = W := rfl
theorem toBuf_v44 (W : (⟨S50000x256, .f32⟩ : BufTy).Contents (Elt Ideal)) :
    (TRef.of (sig := sig) (T := ⟨S50000x256, .f32⟩) main_v44).toBuf W = W := rfl
theorem ofBuf_v44 (W : (⟨S50000x256, .f32⟩ : BufTy).Contents (Elt Ideal)) :
    (TRef.of (sig := sig) (T := ⟨S50000x256, .f32⟩) main_v44).ofBuf W = W := rfl
theorem toBuf_call1_cst (W : (⟨S_, .f32⟩ : BufTy).Contents (Elt Ideal)) :
    (TRef.of (sig := sig) (T := ⟨S_, .f32⟩) main_call1_cst).toBuf W = W := rfl
theorem ofBuf_call1_cst (W : (⟨S_, .f32⟩ : BufTy).Contents (Elt Ideal)) :
    (TRef.of (sig := sig) (T := ⟨S_, .f32⟩) main_call1_cst).ofBuf W = W := rfl
theorem toBuf_call1_v0 (W : (⟨S50000x256, .f32⟩ : BufTy).Contents (Elt Ideal)) :
    (TRef.of (sig := sig) (T := ⟨S50000x256, .f32⟩) main_call1_v0).toBuf W = W := rfl
theorem ofBuf_call1_v0 (W : (⟨S50000x256, .f32⟩ : BufTy).Contents (Elt Ideal)) :
    (TRef.of (sig := sig) (T := ⟨S50000x256, .f32⟩) main_call1_v0).ofBuf W = W := rfl
theorem toBuf_v61 (W : (⟨S50000x256, .f32⟩ : BufTy).Contents (Elt Ideal)) :
    (TRef.of (sig := sig) (T := ⟨S50000x256, .f32⟩) main_v61).toBuf W = W := rfl
theorem ofBuf_v61 (W : (⟨S50000x256, .f32⟩ : BufTy).Contents (Elt Ideal)) :
    (TRef.of (sig := sig) (T := ⟨S50000x256, .f32⟩) main_v61).ofBuf W = W := rfl
theorem toBuf_v62 (W : (⟨S50000x256, .f32⟩ : BufTy).Contents (Elt Ideal)) :
    (TRef.of (sig := sig) (T := ⟨S50000x256, .f32⟩) main_v62).toBuf W = W := rfl
theorem ofBuf_v62 (W : (⟨S50000x256, .f32⟩ : BufTy).Contents (Elt Ideal)) :
    (TRef.of (sig := sig) (T := ⟨S50000x256, .f32⟩) main_v62).ofBuf W = W := rfl
theorem toBuf_call2_cst (W : (⟨S_, .f32⟩ : BufTy).Contents (Elt Ideal)) :
    (TRef.of (sig := sig) (T := ⟨S_, .f32⟩) main_call2_cst).toBuf W = W := rfl
theorem ofBuf_call2_cst (W : (⟨S_, .f32⟩ : BufTy).Contents (Elt Ideal)) :
    (TRef.of (sig := sig) (T := ⟨S_, .f32⟩) main_call2_cst).ofBuf W = W := rfl
theorem toBuf_v80 (W : (⟨S50000x7, .f32⟩ : BufTy).Contents (Elt Ideal)) :
    (TRef.of (sig := sig) (T := ⟨S50000x7, .f32⟩) main_v80).toBuf W = W := rfl
theorem ofBuf_v80 (W : (⟨S50000x7, .f32⟩ : BufTy).Contents (Elt Ideal)) :
    (TRef.of (sig := sig) (T := ⟨S50000x7, .f32⟩) main_v80).ofBuf W = W := rfl
theorem toBuf_call2_v0 (W : (⟨S50000, .f32⟩ : BufTy).Contents (Elt Ideal)) :
    (TRef.of (sig := sig) (T := ⟨S50000, .f32⟩) main_call2_v0).toBuf W = W := rfl
theorem ofBuf_call2_v0 (W : (⟨S50000, .f32⟩ : BufTy).Contents (Elt Ideal)) :
    (TRef.of (sig := sig) (T := ⟨S50000, .f32⟩) main_call2_v0).ofBuf W = W := rfl
theorem toBuf_call2_cst_0 (W : (⟨S_, .f32⟩ : BufTy).Contents (Elt Ideal)) :
    (TRef.of (sig := sig) (T := ⟨S_, .f32⟩) main_call2_cst_0).toBuf W = W := rfl
theorem ofBuf_call2_cst_0 (W : (⟨S_, .f32⟩ : BufTy).Contents (Elt Ideal)) :
    (TRef.of (sig := sig) (T := ⟨S_, .f32⟩) main_call2_cst_0).ofBuf W = W := rfl
theorem toBuf_call2_v1 (W : (⟨S50000, .f32⟩ : BufTy).Contents (Elt Ideal)) :
    (TRef.of (sig := sig) (T := ⟨S50000, .f32⟩) main_call2_v1).toBuf W = W := rfl
theorem ofBuf_call2_v1 (W : (⟨S50000, .f32⟩ : BufTy).Contents (Elt Ideal)) :
    (TRef.of (sig := sig) (T := ⟨S50000, .f32⟩) main_call2_v1).ofBuf W = W := rfl
theorem toBuf_call2_v2 (W : (⟨S50000, .f32⟩ : BufTy).Contents (Elt Ideal)) :
    (TRef.of (sig := sig) (T := ⟨S50000, .f32⟩) main_call2_v2).toBuf W = W := rfl
theorem ofBuf_call2_v2 (W : (⟨S50000, .f32⟩ : BufTy).Contents (Elt Ideal)) :
    (TRef.of (sig := sig) (T := ⟨S50000, .f32⟩) main_call2_v2).ofBuf W = W := rfl
theorem toBuf_call2_v3 (W : (⟨S50000x1, .f32⟩ : BufTy).Contents (Elt Ideal)) :
    (TRef.of (sig := sig) (T := ⟨S50000x1, .f32⟩) main_call2_v3).toBuf W = W := rfl
theorem ofBuf_call2_v3 (W : (⟨S50000x1, .f32⟩ : BufTy).Contents (Elt Ideal)) :
    (TRef.of (sig := sig) (T := ⟨S50000x1, .f32⟩) main_call2_v3).ofBuf W = W := rfl
theorem toBuf_call2_v4 (W : (⟨S50000x7, .f32⟩ : BufTy).Contents (Elt Ideal)) :
    (TRef.of (sig := sig) (T := ⟨S50000x7, .f32⟩) main_call2_v4).toBuf W = W := rfl
theorem ofBuf_call2_v4 (W : (⟨S50000x7, .f32⟩ : BufTy).Contents (Elt Ideal)) :
    (TRef.of (sig := sig) (T := ⟨S50000x7, .f32⟩) main_call2_v4).ofBuf W = W := rfl
theorem toBuf_call2_v5 (W : (⟨S50000x7, .f32⟩ : BufTy).Contents (Elt Ideal)) :
    (TRef.of (sig := sig) (T := ⟨S50000x7, .f32⟩) main_call2_v5).toBuf W = W := rfl
theorem ofBuf_call2_v5 (W : (⟨S50000x7, .f32⟩ : BufTy).Contents (Elt Ideal)) :
    (TRef.of (sig := sig) (T := ⟨S50000x7, .f32⟩) main_call2_v5).ofBuf W = W := rfl
theorem toBuf_call2_v6 (W : (⟨S50000x7, .f32⟩ : BufTy).Contents (Elt Ideal)) :
    (TRef.of (sig := sig) (T := ⟨S50000x7, .f32⟩) main_call2_v6).toBuf W = W := rfl
theorem ofBuf_call2_v6 (W : (⟨S50000x7, .f32⟩ : BufTy).Contents (Elt Ideal)) :
    (TRef.of (sig := sig) (T := ⟨S50000x7, .f32⟩) main_call2_v6).ofBuf W = W := rfl
theorem toBuf_call2_cst_1 (W : (⟨S_, .f32⟩ : BufTy).Contents (Elt Ideal)) :
    (TRef.of (sig := sig) (T := ⟨S_, .f32⟩) main_call2_cst_1).toBuf W = W := rfl
theorem ofBuf_call2_cst_1 (W : (⟨S_, .f32⟩ : BufTy).Contents (Elt Ideal)) :
    (TRef.of (sig := sig) (T := ⟨S_, .f32⟩) main_call2_cst_1).ofBuf W = W := rfl
theorem toBuf_call2_v7 (W : (⟨S50000, .f32⟩ : BufTy).Contents (Elt Ideal)) :
    (TRef.of (sig := sig) (T := ⟨S50000, .f32⟩) main_call2_v7).toBuf W = W := rfl
theorem ofBuf_call2_v7 (W : (⟨S50000, .f32⟩ : BufTy).Contents (Elt Ideal)) :
    (TRef.of (sig := sig) (T := ⟨S50000, .f32⟩) main_call2_v7).ofBuf W = W := rfl
theorem toBuf_call2_v8 (W : (⟨S50000x1, .f32⟩ : BufTy).Contents (Elt Ideal)) :
    (TRef.of (sig := sig) (T := ⟨S50000x1, .f32⟩) main_call2_v8).toBuf W = W := rfl
theorem ofBuf_call2_v8 (W : (⟨S50000x1, .f32⟩ : BufTy).Contents (Elt Ideal)) :
    (TRef.of (sig := sig) (T := ⟨S50000x1, .f32⟩) main_call2_v8).ofBuf W = W := rfl
theorem toBuf_call2_v9 (W : (⟨S50000x1, .f32⟩ : BufTy).Contents (Elt Ideal)) :
    (TRef.of (sig := sig) (T := ⟨S50000x1, .f32⟩) main_call2_v9).toBuf W = W := rfl
theorem ofBuf_call2_v9 (W : (⟨S50000x1, .f32⟩ : BufTy).Contents (Elt Ideal)) :
    (TRef.of (sig := sig) (T := ⟨S50000x1, .f32⟩) main_call2_v9).ofBuf W = W := rfl
theorem toBuf_call2_v10 (W : (⟨S50000x7, .f32⟩ : BufTy).Contents (Elt Ideal)) :
    (TRef.of (sig := sig) (T := ⟨S50000x7, .f32⟩) main_call2_v10).toBuf W = W := rfl
theorem ofBuf_call2_v10 (W : (⟨S50000x7, .f32⟩ : BufTy).Contents (Elt Ideal)) :
    (TRef.of (sig := sig) (T := ⟨S50000x7, .f32⟩) main_call2_v10).ofBuf W = W := rfl
theorem toBuf_v81 (W : (⟨S50000x7, .f32⟩ : BufTy).Contents (Elt Ideal)) :
    (TRef.of (sig := sig) (T := ⟨S50000x7, .f32⟩) main_v81).toBuf W = W := rfl
theorem ofBuf_v81 (W : (⟨S50000x7, .f32⟩ : BufTy).Contents (Elt Ideal)) :
    (TRef.of (sig := sig) (T := ⟨S50000x7, .f32⟩) main_v81).ofBuf W = W := rfl

end Cert.ReferenceIdeal.Fold

end
-- ==== Proof.RefFoldC.lean ====
/-
  The reference's matrix products, closing steps (bias; clamp at zero; residual) and final log-softmax, each given the
  values it reads: each leaves its staged value.
-/
import proofs.«135195_j40699110097665_1_alg».proof.Proof.RefStages
import proofs.«135195_j40699110097665_1_alg».proof.Proof.RefCasts
import proofs.«135195_j40699110097665_1_alg».proof.Proof.RefRead

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

set_option maxHeartbeats 8000000 in
/-- The first matrix product. -/
theorem B2_v27_of (ha0 : B1 m c (Proc.devRef .tc main_arg0) = (m ((c.tc : Thread nD τ).loc main_arg0))) (ha2 : B1 m c (Proc.devRef .tc main_arg2) = (m ((c.tc : Thread nD τ).loc main_arg2))) :
    B2 m c (Proc.devRef .tc main_v27) = ReadP.val_main_v27 (F := Ideal) (m ((c.tc : Thread nD τ).loc main_arg0)) (m ((c.tc : Thread nD τ).loc main_arg2)) := by
  unfold B2
  after_results
  rw [ha0, ha2]
  rfl

set_option maxHeartbeats 8000000 in
/-- The first layer's output: bias, clamp at zero. -/
theorem B4_v44_of (hv40 : B3 m c (Proc.devRef .tc main_v40) = ReadP.val_main_v40 (F := Ideal) (m ((c.tc : Thread nD τ).loc main_arg0)) (m ((c.tc : Thread nD τ).loc main_arg1)) (m ((c.tc : Thread nD τ).loc main_arg2))) (ha3 : B3 m c (Proc.devRef .tc main_arg3) = (m ((c.tc : Thread nD τ).loc main_arg3))) :
    B4 m c (Proc.devRef .tc main_v44) = ReadP.val_main_v44 (F := Ideal) (m ((c.tc : Thread nD τ).loc main_arg0)) (m ((c.tc : Thread nD τ).loc main_arg1)) (m ((c.tc : Thread nD τ).loc main_arg2)) (m ((c.tc : Thread nD τ).loc main_arg3)) := by
  unfold B4
  after_results
  rw [hv40, ha3]
  -- the outlined function's moves between a value's type and its buffer's type are the identity
  repeat (first | rw [toBuf_v43] | rw [ofBuf_v43] | rw [toBuf_call0_cst] | rw [ofBuf_call0_cst] | rw [toBuf_call0_v0] | rw [ofBuf_call0_v0] | rw [toBuf_v44] | rw [ofBuf_v44])
  rfl

set_option maxHeartbeats 8000000 in
/-- The second matrix product. -/
theorem B5_v45_of (hv44 : B4 m c (Proc.devRef .tc main_v44) = ReadP.val_main_v44 (F := Ideal) (m ((c.tc : Thread nD τ).loc main_arg0)) (m ((c.tc : Thread nD τ).loc main_arg1)) (m ((c.tc : Thread nD τ).loc main_arg2)) (m ((c.tc : Thread nD τ).loc main_arg3))) (ha4 : B4 m c (Proc.devRef .tc main_arg4) = (m ((c.tc : Thread nD τ).loc main_arg4))) :
    B5 m c (Proc.devRef .tc main_v45) = ReadP.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold B5
  after_results
  rw [hv44, ha4]
  rfl

set_option maxHeartbeats 8000000 in
/-- The second layer's output: bias, clamp at zero, the first layer's output added back. -/
theorem B7_v63_of (hv58 : B6 m c (Proc.devRef .tc main_v58) = ReadP.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (ha5 : B6 m c (Proc.devRef .tc main_arg5) = (m ((c.tc : Thread nD τ).loc main_arg5)))
    (hv44 : B6 m c (Proc.devRef .tc main_v44) = ReadP.val_main_v44 (F := Ideal) (m ((c.tc : Thread nD τ).loc main_arg0)) (m ((c.tc : Thread nD τ).loc main_arg1)) (m ((c.tc : Thread nD τ).loc main_arg2)) (m ((c.tc : Thread nD τ).loc main_arg3))) :
    B7 m c (Proc.devRef .tc main_v63) = ReadP.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold B7
  after_results
  rw [hv58, ha5, hv44]
  -- the outlined function's moves between a value's type and its buffer's type are the identity
  repeat (first | rw [toBuf_v61] | rw [ofBuf_v61] | rw [toBuf_call1_cst] | rw [ofBuf_call1_cst] | rw [toBuf_call1_v0] | rw [ofBuf_call1_v0] | rw [toBuf_v62] | rw [ofBuf_v62])
  rfl

set_option maxHeartbeats 8000000 in
/-- The third matrix product. -/
theorem B8_v64_of (hv63 : B7 m c (Proc.devRef .tc main_v63) = ReadP.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (ha6 : B7 m c (Proc.devRef .tc main_arg6) = (m ((c.tc : Thread nD τ).loc main_arg6))) :
    B8 m c (Proc.devRef .tc main_v64) = ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold B8
  after_results
  rw [hv63, ha6]
  rfl

set_option maxHeartbeats 8000000 in
/-- The class scores: the classifier's bias added. -/
theorem B10_v80_of (hv77 : B9 m c (Proc.devRef .tc main_v77) = ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (ha7 : B9 m c (Proc.devRef .tc main_arg7) = (m ((c.tc : Thread nD τ).loc main_arg7))) :
    B10 m c (Proc.devRef .tc main_v80) = ReadP.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold B10
  after_results
  rw [hv77, ha7]
  rfl

set_option maxHeartbeats 8000000 in
/-- The result: the log-softmax over the seven classes. -/
theorem B11_v81_of (hv80 : B10 m c (Proc.devRef .tc main_v80) = ReadP.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    B11 m c (Proc.devRef .tc main_v81) = ReadP.val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold B11
  after_results
  rw [hv80]
  -- the outlined function's moves between a value's type and its buffer's type are the identity
  repeat (first | rw [toBuf_call2_cst] | rw [ofBuf_call2_cst] | rw [toBuf_v80] | rw [ofBuf_v80] | rw [toBuf_call2_v0] | rw [ofBuf_call2_v0] | rw [toBuf_call2_cst_0] | rw [ofBuf_call2_cst_0] | rw [toBuf_call2_v1] | rw [ofBuf_call2_v1] | rw [toBuf_call2_v2] | rw [ofBuf_call2_v2] | rw [toBuf_call2_v3] | rw [ofBuf_call2_v3] | rw [toBuf_call2_v4] | rw [ofBuf_call2_v4] | rw [toBuf_call2_v5] | rw [ofBuf_call2_v5] | rw [toBuf_call2_v6] | rw [ofBuf_call2_v6] | rw [toBuf_call2_cst_1] | rw [ofBuf_call2_cst_1] | rw [toBuf_call2_v7] | rw [ofBuf_call2_v7] | rw [toBuf_call2_v8] | rw [ofBuf_call2_v8] | rw [toBuf_call2_v9] | rw [ofBuf_call2_v9] | rw [toBuf_call2_v10] | rw [ofBuf_call2_v10] | rw [toBuf_v81] | rw [ofBuf_v81])
  rfl

end Cert.ReferenceIdeal.Fold

end
-- ==== Proof.RefFold.lean ====
/-
  The reference's result is its last staged value: the eleven stretches' facts, chained.  The edge lists and edge weights,
  computed in the first stretch, are followed to where each aggregation reads them; the first layer's output to where the
  second layer's residual reads it.
-/
import proofs.«135195_j40699110097665_1_alg».proof.Proof.RefFoldA
import proofs.«135195_j40699110097665_1_alg».proof.Proof.RefFoldB
import proofs.«135195_j40699110097665_1_alg».proof.Proof.RefFoldC
import proofs.«135195_j40699110097665_1_alg».proof.Proof.RefArgs

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem B2_v3 : B2 m c (Proc.devRef .tc main_v3) = ReadP.val_main_v3 (F := Ideal) (m ((c.tc : Thread nD τ).loc main_arg1)) := (B2_keep_v3 m c).trans (B1_v3 m c)
theorem B3_v3 : B3 m c (Proc.devRef .tc main_v3) = ReadP.val_main_v3 (F := Ideal) (m ((c.tc : Thread nD τ).loc main_arg1)) := (B3_keep_v3 m c).trans (B2_v3 m c)
theorem B4_v3 : B4 m c (Proc.devRef .tc main_v3) = ReadP.val_main_v3 (F := Ideal) (m ((c.tc : Thread nD τ).loc main_arg1)) := (B4_keep_v3 m c).trans (B3_v3 m c)
theorem B5_v3 : B5 m c (Proc.devRef .tc main_v3) = ReadP.val_main_v3 (F := Ideal) (m ((c.tc : Thread nD τ).loc main_arg1)) := (B5_keep_v3 m c).trans (B4_v3 m c)
theorem B6_v3 : B6 m c (Proc.devRef .tc main_v3) = ReadP.val_main_v3 (F := Ideal) (m ((c.tc : Thread nD τ).loc main_arg1)) := (B6_keep_v3 m c).trans (B5_v3 m c)
theorem B7_v3 : B7 m c (Proc.devRef .tc main_v3) = ReadP.val_main_v3 (F := Ideal) (m ((c.tc : Thread nD τ).loc main_arg1)) := (B7_keep_v3 m c).trans (B6_v3 m c)
theorem B8_v3 : B8 m c (Proc.devRef .tc main_v3) = ReadP.val_main_v3 (F := Ideal) (m ((c.tc : Thread nD τ).loc main_arg1)) := (B8_keep_v3 m c).trans (B7_v3 m c)
theorem B2_v6 : B2 m c (Proc.devRef .tc main_v6) = ReadP.val_main_v6 (F := Ideal) (m ((c.tc : Thread nD τ).loc main_arg1)) := (B2_keep_v6 m c).trans (B1_v6 m c)
theorem B3_v6 : B3 m c (Proc.devRef .tc main_v6) = ReadP.val_main_v6 (F := Ideal) (m ((c.tc : Thread nD τ).loc main_arg1)) := (B3_keep_v6 m c).trans (B2_v6 m c)
theorem B4_v6 : B4 m c (Proc.devRef .tc main_v6) = ReadP.val_main_v6 (F := Ideal) (m ((c.tc : Thread nD τ).loc main_arg1)) := (B4_keep_v6 m c).trans (B3_v6 m c)
theorem B5_v6 : B5 m c (Proc.devRef .tc main_v6) = ReadP.val_main_v6 (F := Ideal) (m ((c.tc : Thread nD τ).loc main_arg1)) := (B5_keep_v6 m c).trans (B4_v6 m c)
theorem B6_v6 : B6 m c (Proc.devRef .tc main_v6) = ReadP.val_main_v6 (F := Ideal) (m ((c.tc : Thread nD τ).loc main_arg1)) := (B6_keep_v6 m c).trans (B5_v6 m c)
theorem B7_v6 : B7 m c (Proc.devRef .tc main_v6) = ReadP.val_main_v6 (F := Ideal) (m ((c.tc : Thread nD τ).loc main_arg1)) := (B7_keep_v6 m c).trans (B6_v6 m c)
theorem B8_v6 : B8 m c (Proc.devRef .tc main_v6) = ReadP.val_main_v6 (F := Ideal) (m ((c.tc : Thread nD τ).loc main_arg1)) := (B8_keep_v6 m c).trans (B7_v6 m c)
theorem B2_v26 : B2 m c (Proc.devRef .tc main_v26) = ReadP.val_main_v26 (F := Ideal) (m ((c.tc : Thread nD τ).loc main_arg1)) := (B2_keep_v26 m c).trans (B1_v26 m c)
theorem B3_v26 : B3 m c (Proc.devRef .tc main_v26) = ReadP.val_main_v26 (F := Ideal) (m ((c.tc : Thread nD τ).loc main_arg1)) := (B3_keep_v26 m c).trans (B2_v26 m c)
theorem B4_v26 : B4 m c (Proc.devRef .tc main_v26) = ReadP.val_main_v26 (F := Ideal) (m ((c.tc : Thread nD τ).loc main_arg1)) := (B4_keep_v26 m c).trans (B3_v26 m c)
theorem B5_v26 : B5 m c (Proc.devRef .tc main_v26) = ReadP.val_main_v26 (F := Ideal) (m ((c.tc : Thread nD τ).loc main_arg1)) := (B5_keep_v26 m c).trans (B4_v26 m c)
theorem B6_v26 : B6 m c (Proc.devRef .tc main_v26) = ReadP.val_main_v26 (F := Ideal) (m ((c.tc : Thread nD τ).loc main_arg1)) := (B6_keep_v26 m c).trans (B5_v26 m c)
theorem B7_v26 : B7 m c (Proc.devRef .tc main_v26) = ReadP.val_main_v26 (F := Ideal) (m ((c.tc : Thread nD τ).loc main_arg1)) := (B7_keep_v26 m c).trans (B6_v26 m c)
theorem B8_v26 : B8 m c (Proc.devRef .tc main_v26) = ReadP.val_main_v26 (F := Ideal) (m ((c.tc : Thread nD τ).loc main_arg1)) := (B8_keep_v26 m c).trans (B7_v26 m c)

theorem B2_v27 : B2 m c (Proc.devRef .tc main_v27) = ReadP.val_main_v27 (F := Ideal) (m ((c.tc : Thread nD τ).loc main_arg0)) (m ((c.tc : Thread nD τ).loc main_arg2)) := B2_v27_of m c (B1_arg0 m c) (B1_arg2 m c)
theorem B3_v40 : B3 m c (Proc.devRef .tc main_v40) = ReadP.val_main_v40 (F := Ideal) (m ((c.tc : Thread nD τ).loc main_arg0)) (m ((c.tc : Thread nD τ).loc main_arg1)) (m ((c.tc : Thread nD τ).loc main_arg2)) := B3_v40_of m c (B2_v27 m c) (B2_v3 m c) (B2_v6 m c) (B2_v26 m c)
theorem B4_v44 : B4 m c (Proc.devRef .tc main_v44) = ReadP.val_main_v44 (F := Ideal) (m ((c.tc : Thread nD τ).loc main_arg0)) (m ((c.tc : Thread nD τ).loc main_arg1)) (m ((c.tc : Thread nD τ).loc main_arg2)) (m ((c.tc : Thread nD τ).loc main_arg3)) := B4_v44_of m c (B3_v40 m c) (B3_arg3 m c)
theorem B5_v44 : B5 m c (Proc.devRef .tc main_v44) = ReadP.val_main_v44 (F := Ideal) (m ((c.tc : Thread nD τ).loc main_arg0)) (m ((c.tc : Thread nD τ).loc main_arg1)) (m ((c.tc : Thread nD τ).loc main_arg2)) (m ((c.tc : Thread nD τ).loc main_arg3)) := (B5_keep_v44 m c).trans (B4_v44 m c)
theorem B6_v44 : B6 m c (Proc.devRef .tc main_v44) = ReadP.val_main_v44 (F := Ideal) (m ((c.tc : Thread nD τ).loc main_arg0)) (m ((c.tc : Thread nD τ).loc main_arg1)) (m ((c.tc : Thread nD τ).loc main_arg2)) (m ((c.tc : Thread nD τ).loc main_arg3)) := (B6_keep_v44 m c).trans (B5_v44 m c)
theorem B5_v45 : B5 m c (Proc.devRef .tc main_v45) = ReadP.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := B5_v45_of m c (B4_v44 m c) (B4_arg4 m c)
theorem B6_v58 : B6 m c (Proc.devRef .tc main_v58) = ReadP.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := B6_v58_of m c (B5_v45 m c) (B5_v3 m c) (B5_v6 m c) (B5_v26 m c)
theorem B7_v63 : B7 m c (Proc.devRef .tc main_v63) = ReadP.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := B7_v63_of m c (B6_v58 m c) (B6_arg5 m c) (B6_v44 m c)
theorem B8_v64 : B8 m c (Proc.devRef .tc main_v64) = ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := B8_v64_of m c (B7_v63 m c) (B7_arg6 m c)
theorem B9_v77 : B9 m c (Proc.devRef .tc main_v77) = ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := B9_v77_of m c (B8_v64 m c) (B8_v3 m c) (B8_v6 m c) (B8_v26 m c)
theorem B10_v80 : B10 m c (Proc.devRef .tc main_v80) = ReadP.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := B10_v80_of m c (B9_v77 m c) (B9_arg7 m c)

/-- The reference's result array after the whole program is its last staged value of the arguments. -/
theorem result_eq : B11 m c (Proc.devRef .tc main_v81) = ReadP.val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := B11_v81_of m c (B10_v80 m c)

end Cert.ReferenceIdeal.Fold

end
-- ==== Proof.lean ====
/-
  A three-layer graph convolution (dense layer, neighbour aggregation, bias; clamp at zero after the first two layers,
  a residual after the second; log-softmax at the end) on 50000 nodes and 850000 edges, as a program of six tiled
  kernels among host operations, against the same network written with whole-array operations.  Over the extended reals
  the two compute one function of the eight argument arrays:
    * each tiled matmul kernel (25 blocks of 2000 rows; the casts to bf16 are the identity on extended reals; the
      accumulator starts at zero) leaves X·W, the reference's dot_general, since every entry is the same sum
      Σ_k X[n,k]·W[k,j] and the row blocks cover the array (Dense0, Dense2, Dense4; RefLayers);
    * each tiled closing kernel leaves max(A + b, 0), max(A + b, 0) + R, or A + b entry by entry — the reference's add,
      maximum, add on whole arrays (Close1, Close3, Close5; RefLayers);
    * the host operations in between (edge lists with self-loops, degrees, edge weights, row gather, scaling,
      scatter-add, log-softmax) are the same operations in both programs, applied to arrays already known equal
      (HostStages, Chain for the tiled program; RefFold for the reference).
  No law of arithmetic beyond reading each operation at an index is used, so finiteness of the inputs is never needed.
  The tiled program's run with its result named is RunResult; the reference's run is RefStages.  Nothing was
  rewritten by the idealization, so the word-level kernel's sanctioned idealization is its own text read over the
  extended reals.
-/
import proofs.«135195_j40699110097665_1_alg».proof.Defs
import proofs.«135195_j40699110097665_1_alg».proof.Proof.Gen.Kernel
import proofs.«135195_j40699110097665_1_alg».proof.Proof.Gen.Kernel.Frame
import proofs.«135195_j40699110097665_1_alg».proof.Proof.Gen.KernelIdeal
import proofs.«135195_j40699110097665_1_alg».proof.Proof.Gen.KernelIdeal.Frame
import proofs.«135195_j40699110097665_1_alg».proof.Proof.Gen.ReferenceIdeal
import proofs.«135195_j40699110097665_1_alg».proof.Proof.Gen.Pre_finite_inputs
import proofs.«135195_j40699110097665_1_alg».proof.Proof.RunResult
import proofs.«135195_j40699110097665_1_alg».proof.Proof.Chain
import proofs.«135195_j40699110097665_1_alg».proof.Proof.RefStages
import proofs.«135195_j40699110097665_1_alg».proof.Proof.RefArgs
import proofs.«135195_j40699110097665_1_alg».proof.Proof.RefFold
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched. -/
theorem frame_kernel : @Cert.frame_Kernel Cert.Kernel.Gen.facts Cert.Pre_finite_inputs.Gen.facts :=
  fun m ρ _ => Cert.Kernel.Gen.frame m ρ

/-- The idealized program runs and leaves its arguments as launched. -/
theorem frame_kernelIdeal : @Cert.frame_KernelIdeal Cert.KernelIdeal.Gen.facts Cert.Pre_finite_inputs.Gen.facts :=
  fun m ρ _ => Cert.KernelIdeal.Gen.frame m ρ

/-- The reference runs and leaves its arguments as launched: none of its operations writes one. -/
theorem frame_referenceIdeal : @Cert.frame_ReferenceIdeal Cert.ReferenceIdeal.Gen.facts Cert.Pre_finite_inputs.Gen.facts :=
  fun m ρ _ => (θ_run Cert.ReferenceIdeal.defs _ _).mono
    (fun _ h c => ⟨(h c Cert.ReferenceIdeal.main_arg0).trans (Cert.ReferenceIdeal.Fold.B11_arg0 m c),
      (h c Cert.ReferenceIdeal.main_arg1).trans (Cert.ReferenceIdeal.Fold.B11_arg1 m c),
      (h c Cert.ReferenceIdeal.main_arg2).trans (Cert.ReferenceIdeal.Fold.B11_arg2 m c),
      (h c Cert.ReferenceIdeal.main_arg3).trans (Cert.ReferenceIdeal.Fold.B11_arg3 m c),
      (h c Cert.ReferenceIdeal.main_arg4).trans (Cert.ReferenceIdeal.Fold.B11_arg4 m c),
      (h c Cert.ReferenceIdeal.main_arg5).trans (Cert.ReferenceIdeal.Fold.B11_arg5 m c),
      (h c Cert.ReferenceIdeal.main_arg6).trans (Cert.ReferenceIdeal.Fold.B11_arg6 m c),
      (h c Cert.ReferenceIdeal.main_arg7).trans (Cert.ReferenceIdeal.Fold.B11_arg7 m c)⟩)
    (Cert.ReferenceIdeal.Fold.run_fold (F := Ideal) m ρ)

/-- The idealization rewrote nothing. -/
theorem preserves : Cert.preserves_Kernel_KernelIdeal := trivial

/-- Both programs end with the reference's last staged value of the (agreeing) arguments in their result arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v81 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Layers.result_eq m ρ c), (h c).2⟩)
      (Cert.KernelIdeal.Layers.run_result (F := Ideal) m ρ)
  · refine (θ_run Cert.ReferenceIdeal.defs _ _).mono
      (fun _ h c => ⟨?_, (h c Cert.ReferenceIdeal.main_arg0).trans (Cert.ReferenceIdeal.Fold.B11_arg0 m' c),
        (h c Cert.ReferenceIdeal.main_arg1).trans (Cert.ReferenceIdeal.Fold.B11_arg1 m' c),
        (h c Cert.ReferenceIdeal.main_arg2).trans (Cert.ReferenceIdeal.Fold.B11_arg2 m' c),
        (h c Cert.ReferenceIdeal.main_arg3).trans (Cert.ReferenceIdeal.Fold.B11_arg3 m' c),
        (h c Cert.ReferenceIdeal.main_arg4).trans (Cert.ReferenceIdeal.Fold.B11_arg4 m' c),
        (h c Cert.ReferenceIdeal.main_arg5).trans (Cert.ReferenceIdeal.Fold.B11_arg5 m' c),
        (h c Cert.ReferenceIdeal.main_arg6).trans (Cert.ReferenceIdeal.Fold.B11_arg6 m' c),
        (h c Cert.ReferenceIdeal.main_arg7).trans (Cert.ReferenceIdeal.Fold.B11_arg7 m' c)⟩)
      (Cert.ReferenceIdeal.Fold.run_fold (F := Ideal) m' ρ')
    refine (h c Cert.ReferenceIdeal.main_v81).trans ((Cert.ReferenceIdeal.Fold.result_eq m' c).trans ?_)
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
